-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S2x800000 : Shape := ⟨2, ![2, 800000]⟩
abbrev S800000x16 : Shape := ⟨2, ![800000, 16]⟩
abbrev S50000 : Shape := ⟨1, ![50000]⟩
abbrev S16x96 : Shape := ⟨2, ![16, 96]⟩
abbrev S96 : Shape := ⟨1, ![96]⟩
abbrev S96x128 : Shape := ⟨2, ![96, 128]⟩
abbrev S128 : Shape := ⟨1, ![128]⟩
abbrev S128x128 : Shape := ⟨2, ![128, 128]⟩
abbrev S16x128 : Shape := ⟨2, ![16, 128]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S800000x16 : S_.BroadcastsInDim S800000x16 (![] : Fin 0 → Fin S800000x16.rank)
  reducesTo_S800000x16_S_d0_1 : S800000x16.ReducesTo [0, 1] S_
  bcast_S_S16x96 : S_.BroadcastsInDim S16x96 (![] : Fin 0 → Fin S16x96.rank)
  reducesTo_S16x96_S_d0_1 : S16x96.ReducesTo [0, 1] S_
  bcast_S_S96 : S_.BroadcastsInDim S96 (![] : Fin 0 → Fin S96.rank)
  reducesTo_S96_S_d0 : S96.ReducesTo [0] S_
  bcast_S_S96x128 : S_.BroadcastsInDim S96x128 (![] : Fin 0 → Fin S96x128.rank)
  reducesTo_S96x128_S_d0_1 : S96x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S16x128 : S_.BroadcastsInDim S16x128 (![] : Fin 0 → Fin S16x128.rank)
  reducesTo_S16x128_S_d0_1 : S16x128.ReducesTo [0, 1] S_

variable [Facts]

def fn_part4 {F : FTy → Type} [FloatOps F] (main_arg16 : FVec F S128x128 .f32) (main_arg17 : FVec F S128 .f32) (main_v63 : IVec S_ 1) (main_v67 : IVec S_ 1) : IVec S_ 1 :=
  let main_v68 : IVec S_ 1 := andi main_v63 main_v67
  let main_v69 : FVec F S128x128 .f32 := Host.absf main_arg16
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  main_v78

def fn_part3 {F : FTy → Type} [FloatOps F] (main_arg13 : FVec F S128 .f32) (main_arg14 : FVec F S128x128 .f32) (main_arg15 : FVec F S128 .f32) (main_arg16 : FVec F S128x128 .f32) (main_arg17 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg14
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_v63 main_v67

def fn_part2 {F : FTy → Type} [FloatOps F] (main_arg9 : FVec F S128 .f32) (main_arg10 : FVec F S16x128 .f32) (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S16x128 .f32 := Host.absf main_arg10
  let main_cst_14 : FVec F S_ .f32 := constant S_ .f32 0x7F800000#32
  let main_v40 : FVec F S16x128 .f32 := broadcastInDim S16x128 ![] bcast_S_S16x128 main_cst_14
  let main_v41 : IVec S16x128 1 := cmpf .olt main_v39 main_v40
  let main_c_15 : IVec S_ 1 := constantI S_ 1 1#1
  let main_v42 : IVec S_ 1 := (fun x v => Host.reduce IntOp.andi x v reducesTo_S16x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg13 main_arg14 main_arg15 main_arg16 main_arg17 main_v48 main_v49 main_v50

def fn_part1 {F : FTy → Type} [FloatOps F] (main_arg6 : FVec F S96x128 .f32) (main_arg7 : FVec F S128 .f32) (main_arg8 : FVec F S128x128 .f32) (main_arg9 : FVec F S128 .f32) (main_arg10 : FVec F S16x128 .f32) (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_v13 : IVec S_ 1) (main_v16 : IVec S96 1) : IVec S_ 1 :=
  let main_c_5 : IVec S_ 1 := constantI S_ 1 1#1
  let main_v17 : IVec S_ 1 := (fun x v => Host.reduce IntOp.andi x v reducesTo_S96_S_d0 h_S_) main_v16 main_c_5
  let main_v18 : IVec S_ 1 := andi main_v13 main_v17
  let main_v19 : FVec F S96x128 .f32 := Host.absf main_arg6
  let main_cst_6 : FVec F S_ .f32 := constant S_ .f32 0x7F800000#32
  let main_v20 : FVec F S96x128 .f32 := broadcastInDim S96x128 ![] bcast_S_S96x128 main_cst_6
  let main_v21 : IVec S96x128 1 := cmpf .olt main_v19 main_v20
  let main_c_7 : IVec S_ 1 := constantI S_ 1 1#1
  let main_v22 : IVec S_ 1 := (fun x v => Host.reduce IntOp.andi x v reducesTo_S96x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_arg15 main_arg16 main_arg17 main_v33

def fn {F : FTy → Type} [FloatOps F] (main_arg0 : FVec F S50000x96 .f32) (main_arg1 : IVec S2x800000 32) (main_arg2 : FVec F S800000x16 .f32) (main_arg3 : IVec S50000 32) (main_arg4 : FVec F S16x96 .f32) (main_arg5 : FVec F S96 .f32) (main_arg6 : FVec F S96x128 .f32) (main_arg7 : FVec F S128 .f32) (main_arg8 : FVec F S128x128 .f32) (main_arg9 : FVec F S128 .f32) (main_arg10 : FVec F S16x128 .f32) (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S800000x16 .f32 := Host.absf main_arg2
  let main_cst_0 : FVec F S_ .f32 := constant S_ .f32 0x7F800000#32
  let main_v5 : FVec F S800000x16 .f32 := broadcastInDim S800000x16 ![] bcast_S_S800000x16 main_cst_0
  let main_v6 : IVec S800000x16 1 := cmpf .olt main_v4 main_v5
  let main_c_1 : IVec S_ 1 := constantI S_ 1 1#1
  let main_v7 : IVec S_ 1 := (fun x v => Host.reduce IntOp.andi x v reducesTo_S800000x16_S_d0_1 h_S_) main_v6 main_c_1
  let main_v8 : IVec S_ 1 := andi main_v3 main_v7
  let main_v9 : FVec F S16x96 .f32 := Host.absf main_arg4
  let main_cst_2 : FVec F S_ .f32 := constant S_ .f32 0x7F800000#32
  let main_v10 : FVec F S16x96 .f32 := broadcastInDim S16x96 ![] bcast_S_S16x96 main_cst_2
  let main_v11 : IVec S16x96 1 := cmpf .olt main_v9 main_v10
  let main_c_3 : IVec S_ 1 := constantI S_ 1 1#1
  let main_v12 : IVec S_ 1 := (fun x v => Host.reduce IntOp.andi x v reducesTo_S16x96_S_d0_1 h_S_) main_v11 main_c_3
  let main_v13 : IVec S_ 1 := andi main_v8 main_v12
  let main_v14 : FVec F S96 .f32 := Host.absf main_arg5
  let main_cst_4 : FVec F S_ .f32 := constant S_ .f32 0x7F800000#32
  let main_v15 : FVec F S96 .f32 := broadcastInDim S96 ![] bcast_S_S96 main_cst_4
  let main_v16 : IVec S96 1 := cmpf .olt main_v14 main_v15
  fn_part1 (F := F) main_arg6 main_arg7 main_arg8 main_arg9 main_arg10 main_arg11 main_arg12 main_arg13 main_arg14 main_arg15 main_arg16 main_arg17 main_v13 main_v16
-- ==== Kernel.lean ====
abbrev S50000x96 : Shape := ⟨2, ![50000, 96]⟩
abbrev S2x800000 : Shape := ⟨2, ![2, 800000]⟩
abbrev S800000x16 : Shape := ⟨2, ![800000, 16]⟩
abbrev S50000 : Shape := ⟨1, ![50000]⟩
abbrev S16x96 : Shape := ⟨2, ![16, 96]⟩
abbrev S96 : Shape := ⟨1, ![96]⟩
abbrev S96x128 : Shape := ⟨2, ![96, 128]⟩
abbrev S128 : Shape := ⟨1, ![128]⟩
abbrev S128x128 : Shape := ⟨2, ![128, 128]⟩
abbrev S16x128 : Shape := ⟨2, ![16, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x96 : Shape := ⟨2, ![800000, 96]⟩
abbrev S1x96 : Shape := ⟨2, ![1, 96]⟩
abbrev S16000x16 : Shape := ⟨2, ![16000, 16]⟩
abbrev S16000x96 : Shape := ⟨2, ![16000, 96]⟩
abbrev S1x128 : Shape := ⟨2, ![1, 128]⟩
abbrev S50000x128 : Shape := ⟨2, ![50000, 128]⟩
abbrev S10000x96 : Shape := ⟨2, ![10000, 96]⟩
abbrev S10000x128 : Shape := ⟨2, ![10000, 128]⟩
abbrev S800000x128 : Shape := ⟨2, ![800000, 128]⟩
abbrev S16000x128 : Shape := ⟨2, ![16000, 128]⟩
abbrev S512x128 : Shape := ⟨2, ![512, 128]⟩
abbrev S50000x1 : Shape := ⟨2, ![50000, 1]⟩

abbrev nBuf : Space → Nat
  | .hbm => 66
  | .vmem => 36
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S800000x16, .f32⟩
  | .hbm, ⟨3, _⟩ => ⟨S50000, .i32⟩
  | .hbm, ⟨4, _⟩ => ⟨S16x96, .f32⟩
  | .hbm, ⟨5, _⟩ => ⟨S96, .f32⟩
  | .hbm, ⟨6, _⟩ => ⟨S96x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S16x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128x128, .f32⟩
  | .hbm, ⟨17, _⟩ => ⟨S128, .f32⟩
  | .hbm, ⟨18, _⟩ => ⟨S1x800000, .i32⟩
  | .hbm, ⟨19, _⟩ => ⟨S800000, .i32⟩
  | .hbm, ⟨20, _⟩ => ⟨S1x800000, .i32⟩
  | .hbm, ⟨21, _⟩ => ⟨S800000, .i32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x96, .f32⟩
  | .hbm, ⟨31, _⟩ => ⟨S1x96, .f32⟩
  | .hbm, ⟨32, _⟩ => ⟨S800000x96, .f32⟩
  | .hbm, ⟨33, _⟩ => ⟨S_, .f32⟩
  | .hbm, ⟨34, _⟩ => ⟨S50000x96, .f32⟩
  | .hbm, ⟨35, _⟩ => ⟨S800000x1, .i32⟩
  | .hbm, ⟨36, _⟩ => ⟨S50000x96, .f32⟩
  | .hbm, ⟨37, _⟩ => ⟨S1x128, .f32⟩
  | .hbm, ⟨38, _⟩ => ⟨S1x128, .f32⟩
  | .hbm, ⟨39, _⟩ => ⟨S50000x128, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000x128, .f32⟩
  | .hbm, ⟨49, _⟩ => ⟨S1x128, .f32⟩
  | .hbm, ⟨50, _⟩ => ⟨S800000x128, .f32⟩
  | .hbm, ⟨51, _⟩ => ⟨S_, .f32⟩
  | .hbm, ⟨52, _⟩ => ⟨S50000x128, .f32⟩
  | .hbm, ⟨53, _⟩ => ⟨S800000x1, .i32⟩
  | .hbm, ⟨54, _⟩ => ⟨S50000x128, .f32⟩
  | .hbm, ⟨55, _⟩ => ⟨S1x128, .f32⟩
  | .hbm, ⟨56, _⟩ => ⟨S1x128, .f32⟩
  | .hbm, ⟨57, _⟩ => ⟨S50000x128, .f32⟩
  | .hbm, ⟨58, _⟩ => ⟨S_, .f32⟩
  | .hbm, ⟨59, _⟩ => ⟨S512x128, .f32⟩
  | .hbm, ⟨60, _⟩ => ⟨S50000x1, .i32⟩
  | .hbm, ⟨61, _⟩ => ⟨S512x128, .f32⟩
  | .hbm, ⟨62, _⟩ => ⟨S512x128, .f32⟩
  | .hbm, ⟨63, _⟩ => ⟨S1x128, .f32⟩
  | .hbm, ⟨64, _⟩ => ⟨S512x128, .f32⟩
  | .hbm, ⟨65, _⟩ => ⟨S512x128, .f32⟩
  | .local _ .vmem, ⟨0, _⟩ => ⟨S16000x16, .f32⟩
  | .local _ .vmem, ⟨1, _⟩ => ⟨S16000x16, .f32⟩
  | .local _ .vmem, ⟨2, _⟩ => ⟨S16000x96, .f32⟩
  | .local _ .vmem, ⟨3, _⟩ => ⟨S16000x96, .f32⟩
  | .local _ .vmem, ⟨4, _⟩ => ⟨S16x96, .f32⟩
  | .local _ .vmem, ⟨5, _⟩ => ⟨S1x96, .f32⟩
  | .local _ .vmem, ⟨6, _⟩ => ⟨S16000x96, .f32⟩
  | .local _ .vmem, ⟨7, _⟩ => ⟨S16000x96, .f32⟩
  | .local _ .vmem, ⟨8, _⟩ => ⟨S10000x96, .f32⟩
  | .local _ .vmem, ⟨9, _⟩ => ⟨S10000x96, .f32⟩
  | .local _ .vmem, ⟨10, _⟩ => ⟨S10000x96, .f32⟩
  | .local _ .vmem, ⟨11, _⟩ => ⟨S10000x96, .f32⟩
  | .local _ .vmem, ⟨12, _⟩ => ⟨S96x128, .f32⟩
  | .local _ .vmem, ⟨13, _⟩ => ⟨S1x128, .f32⟩
  | .local _ .vmem, ⟨14, _⟩ => ⟨S128x128, .f32⟩
  | .local _ .vmem, ⟨15, _⟩ => ⟨S1x128, .f32⟩
  | .local _ .vmem, ⟨16, _⟩ => ⟨S10000x128, .f32⟩
  | .local _ .vmem, ⟨17, _⟩ => ⟨S10000x128, .f32⟩
  | .local _ .vmem, ⟨18, _⟩ => ⟨S16000x16, .f32⟩
  | .local _ .vmem, ⟨19, _⟩ => ⟨S16000x16, .f32⟩
  | .local _ .vmem, ⟨20, _⟩ => ⟨S16000x128, .f32⟩
  | .local _ .vmem, ⟨21, _⟩ => ⟨S16000x128, .f32⟩
  | .local _ .vmem, ⟨22, _⟩ => ⟨S16x128, .f32⟩
  | .local _ .vmem, ⟨23, _⟩ => ⟨S1x128, .f32⟩
  | .local _ .vmem, ⟨24, _⟩ => ⟨S16000x128, .f32⟩
  | .local _ .vmem, ⟨25, _⟩ => ⟨S16000x128, .f32⟩
  | .local _ .vmem, ⟨26, _⟩ => ⟨S10000x128, .f32⟩
  | .local _ .vmem, ⟨27, _⟩ => ⟨S10000x128, .f32⟩
  | .local _ .vmem, ⟨28, _⟩ => ⟨S10000x128, .f32⟩
  | .local _ .vmem, ⟨29, _⟩ => ⟨S10000x128, .f32⟩
  | .local _ .vmem, ⟨30, _⟩ => ⟨S128x128, .f32⟩
  | .local _ .vmem, ⟨31, _⟩ => ⟨S1x128, .f32⟩
  | .local _ .vmem, ⟨32, _⟩ => ⟨S128x128, .f32⟩
  | .local _ .vmem, ⟨33, _⟩ => ⟨S1x128, .f32⟩
  | .local _ .vmem, ⟨34, _⟩ => ⟨S10000x128, .f32⟩
  | .local _ .vmem, ⟨35, _⟩ => ⟨S10000x128, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_cst : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_c_1 : Ref sig .tc := ⟨.hbm, 40, rfl⟩
abbrev main_v19 : Ref sig .tc := ⟨.hbm, 41, rfl⟩
abbrev main_v20 : Ref sig .tc := ⟨.hbm, 42, rfl⟩
abbrev main_c_2 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_3 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_4 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg6_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem4_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem6_0 : DmaSem sig := 34
abbrev cc3_sem6_1 : DmaSem sig := 35

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16000x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16000x96 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x96 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S96x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S16000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S16000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S16x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S16000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S10000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  shapeCasts_S96_S1x96 : S96.ShapeCasts S1x96
  inb_S16000x16_S16000x16_0_0 : ∀ a, (![0, 0] : Fin 2 → Nat) a + S16000x16.size a ≤ S16000x16.size a
  h_S16000x16 : 0 < S16000x16.numel
  inb_S16x96_S16x96_0_0 : ∀ a, (![0, 0] : Fin 2 → Nat) a + S16x96.size a ≤ S16x96.size a
  h_S16x96 : 0 < S16x96.numel
  inb_S16000x96_S16000x96_0_0 : ∀ a, (![0, 0] : Fin 2 → Nat) a + S16000x96.size a ≤ S16000x96.size a
  h_S16000x96 : 0 < S16000x96.numel
  shapeCasts_S16000x96_S16000x96 : S16000x96.ShapeCasts S16000x96
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S16000x96 : S1x96.Broadcasts S16000x96
  bcast_S_S50000x96 : S_.BroadcastsInDim S50000x96 (![] : Fin 0 → Fin S50000x96.rank)
  shapeCasts_S128_S1x128 : S128.ShapeCasts S1x128
  inb_S10000x96_S10000x96_0_0 : ∀ a, (![0, 0] : Fin 2 → Nat) a + S10000x96.size a ≤ S10000x96.size a
  h_S10000x96 : 0 < S10000x96.numel
  shapeCasts_S10000x96_S10000x96 : S10000x96.ShapeCasts S10000x96
  inb_S96x128_S96x128_0_0 : ∀ a, (![0, 0] : Fin 2 → Nat) a + S96x128.size a ≤ S96x128.size a
  h_S96x128 : 0 < S96x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x128_S128x128_0_0 : ∀ a, (![0, 0] : Fin 2 → Nat) a + S128x128.size a ≤ S128x128.size a
  h_S128x128 : 0 < S128x128.numel
  inb_S10000x128_S10000x128_0_0 : ∀ a, (![0, 0] : Fin 2 → Nat) a + S10000x128.size a ≤ S10000x128.size a
  h_S10000x128 : 0 < S10000x128.numel
  inb_S16x128_S16x128_0_0 : ∀ a, (![0, 0] : Fin 2 → Nat) a + S16x128.size a ≤ S16x128.size a
  h_S16x128 : 0 < S16x128.numel
  inb_S16000x128_S16000x128_0_0 : ∀ a, (![0, 0] : Fin 2 → Nat) a + S16000x128.size a ≤ S16000x128.size a
  h_S16000x128 : 0 < S16000x128.numel
  shapeCasts_S16000x128_S16000x128 : S16000x128.ShapeCasts S16000x128
  broadcasts_S1x128_S16000x128 : S1x128.Broadcasts S16000x128
  bcast_S_S50000x128 : S_.BroadcastsInDim S50000x128 (![] : Fin 0 → Fin S50000x128.rank)
  shapeCasts_S10000x128_S10000x128 : S10000x128.ShapeCasts S10000x128
  bcast_S_S512x128 : S_.BroadcastsInDim S512x128 (![] : Fin 0 → Fin S512x128.rank)
  bcast_S50000_S50000x1_0 : S50000.BroadcastsInDim S50000x1 (![0] : Fin 1 → Fin S50000x1.rank)
  bcast_S128_S1x128_1 : S128.BroadcastsInDim S1x128 (![1] : Fin 1 → Fin S1x128.rank)
  bcast_S1x128_S512x128_0_1 : S1x128.BroadcastsInDim S512x128 (![0, 1] : Fin 2 → Fin S512x128.rank)
  gather_S50000x96_S800000x1_S800000x96_1_0_n_n_0_1_196_wf : GatherDims.WF S50000x96 S800000x1 S800000x96 [1] [0] [] [0] [] 1 ![1, 96]
  dot_S16000x16_S16x96_S16000x96_1_0_0_1_n_n_wf : DotDims.WF S16000x16 S16x96 S16000x96 [1] [0] [0] [1] [] []
  scatter_S50000x96_S800000x1_S800000x96_1_0_0_1_wf : ScatterDims.WF S50000x96 S800000x1 S800000x96 [1] [0] [0] 1
  dot_S10000x96_S96x128_S10000x128_1_0_0_1_n_n_wf : DotDims.WF S10000x96 S96x128 S10000x128 [1] [0] [0] [1] [] []
  dot_S10000x128_S128x128_S10000x128_1_0_0_1_n_n_wf : DotDims.WF S10000x128 S128x128 S10000x128 [1] [0] [0] [1] [] []
  gather_S50000x128_S800000x1_S800000x128_1_0_n_n_0_1_1128_wf : GatherDims.WF S50000x128 S800000x1 S800000x128 [1] [0] [] [0] [] 1 ![1, 128]
  dot_S16000x16_S16x128_S16000x128_1_0_0_1_n_n_wf : DotDims.WF S16000x16 S16x128 S16000x128 [1] [0] [0] [1] [] []
  scatter_S50000x128_S800000x1_S800000x128_1_0_0_1_wf : ScatterDims.WF S50000x128 S800000x1 S800000x128 [1] [0] [0] 1
  scatter_S512x128_S50000x1_S50000x128_1_0_0_1_wf : ScatterDims.WF S512x128 S50000x1 S50000x128 [1] [0] [0] 1
  dot_S512x128_S128x128_S512x128_1_0_0_1_n_n_wf : DotDims.WF S512x128 S128x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x16.size a ≤ S800000x16.size a
  hwx0_0 : ∀ i : grid0.Coords, EltTy.bits .f32 = 32 ∨ (Rect.block (s := S800000x16) S16000x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16000x96.size a ≤ S800000x96.size a
  hwx0_1 : ∀ i : grid0.Coords, EltTy.bits .f32 = 32 ∨ (Rect.block (s := S800000x96) S16000x96.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x96.size a ≤ S16x96.size a
  hwx0_2 : ∀ i : grid0.Coords, EltTy.bits .f32 = 32 ∨ (Rect.block (s := S16x96) S16x96.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x96.size a ≤ S1x96.size a
  hwx0_3 : ∀ i : grid0.Coords, EltTy.bits .f32 = 32 ∨ (Rect.block (s := S1x96) S1x96.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16000x96.size a ≤ S800000x96.size a
  hwx0_4 : ∀ i : grid0.Coords, EltTy.bits .f32 = 32 ∨ (Rect.block (s := S800000x96) S16000x96.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x96.size a ≤ S50000x96.size a
  hwx1_0 : ∀ i : grid1.Coords, EltTy.bits .f32 = 32 ∨ (Rect.block (s := S50000x96) S10000x96.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x96.size a ≤ S50000x96.size a
  hwx1_1 : ∀ i : grid1.Coords, EltTy.bits .f32 = 32 ∨ (Rect.block (s := S50000x96) S10000x96.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S96x128.size a ≤ S96x128.size a
  hwx1_2 : ∀ i : grid1.Coords, EltTy.bits .f32 = 32 ∨ (Rect.block (s := S96x128) S96x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x128.size a ≤ S50000x128.size a
  hwx1_6 : ∀ i : grid1.Coords, EltTy.bits .f32 = 32 ∨ (Rect.block (s := S50000x128) S10000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S16000x16.size a ≤ S800000x16.size a
  hwx2_0 : ∀ i : grid2.Coords, EltTy.bits .f32 = 32 ∨ (Rect.block (s := S800000x16) S16000x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S16000x128.size a ≤ S800000x128.size a
  hwx2_1 : ∀ i : grid2.Coords, EltTy.bits .f32 = 32 ∨ (Rect.block (s := S800000x128) S16000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S16x128.size a ≤ S16x128.size a
  hwx2_2 : ∀ i : grid2.Coords, EltTy.bits .f32 = 32 ∨ (Rect.block (s := S16x128) S16x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S16000x128.size a ≤ S800000x128.size a
  hwx2_4 : ∀ i : grid2.Coords, EltTy.bits .f32 = 32 ∨ (Rect.block (s := S800000x128) S16000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S50000x128.size a
  hwx3_0 : ∀ i : grid3.Coords, EltTy.bits .f32 = 32 ∨ (Rect.block (s := S50000x128) S10000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x128.size a ≤ S50000x128.size a
  hwx3_1 : ∀ i : grid3.Coords, EltTy.bits .f32 = 32 ∨ (Rect.block (s := S50000x128) S10000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S10000x128.size a ≤ S50000x128.size a
  hwx3_6 : ∀ i : grid3.Coords, EltTy.bits .f32 = 32 ∨ (Rect.block (s := S50000x128) S10000x128.size (cc3_transform_6 i) (hinb3_6 i)).WholeWords (EltTy.packing .f32)

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def dot_S16000x16_S16x96_S16000x96_1_0_0_1_n_n : DotDims S16000x16 S16x96 S16000x96 where
  lhsContracting := [1]
  rhsContracting := [0]
  lhsNonContracting := [0]
  rhsNonContracting := [1]
  lhsBatch := []
  rhsBatch := []
  wf := dot_S16000x16_S16x96_S16000x96_1_0_0_1_n_n_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S10000x96_S96x128_S10000x128_1_0_0_1_n_n : DotDims S10000x96 S96x128 S10000x128 where
  lhsContracting := [1]
  rhsContracting := [0]
  lhsNonContracting := [0]
  rhsNonContracting := [1]
  lhsBatch := []
  rhsBatch := []
  wf := dot_S10000x96_S96x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S16000x16_S16x128_S16000x128_1_0_0_1_n_n : DotDims S16000x16 S16x128 S16000x128 where
  lhsContracting := [1]
  rhsContracting := [0]
  lhsNonContracting := [0]
  rhsNonContracting := [1]
  lhsBatch := []
  rhsBatch := []
  wf := dot_S16000x16_S16x128_S16000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf

abbrev win0_0 : Pipeline.Window sig grid0 :=
  Pipeline.Window.ofSpec (Memref.whole main_arg2) S16000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S16000x96.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S16x96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x96.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S16000x96.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S10000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S10000x96.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S96x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v17) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v18) S10000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_arg2) S16000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v25) S16000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S16x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v26) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v27) S16000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v18) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v30) S10000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg12) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v31) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg14) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v32) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v33) S10000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S50000x96 : Shape := ⟨2, ![50000, 96]⟩
abbrev S2x800000 : Shape := ⟨2, ![2, 800000]⟩
abbrev S800000x16 : Shape := ⟨2, ![800000, 16]⟩
abbrev S50000 : Shape := ⟨1, ![50000]⟩
abbrev S16x96 : Shape := ⟨2, ![16, 96]⟩
abbrev S96 : Shape := ⟨1, ![96]⟩
abbrev S96x128 : Shape := ⟨2, ![96, 128]⟩
abbrev S128 : Shape := ⟨1, ![128]⟩
abbrev S128x128 : Shape := ⟨2, ![128, 128]⟩
abbrev S16x128 : Shape := ⟨2, ![16, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x96 : Shape := ⟨2, ![800000, 96]⟩
abbrev S1x96 : Shape := ⟨2, ![1, 96]⟩
abbrev S50000x128 : Shape := ⟨2, ![50000, 128]⟩
abbrev S1x128 : Shape := ⟨2, ![1, 128]⟩
abbrev S800000x128 : Shape := ⟨2, ![800000, 128]⟩
abbrev S512x128 : Shape := ⟨2, ![512, 128]⟩
abbrev S50000x1 : Shape := ⟨2, ![50000, 1]⟩

abbrev nBuf : Space → Nat
  | .hbm => 108
  | .vmem => 0
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S800000x16, .f32⟩
  | .hbm, ⟨3, _⟩ => ⟨S50000, .i32⟩
  | .hbm, ⟨4, _⟩ => ⟨S16x96, .f32⟩
  | .hbm, ⟨5, _⟩ => ⟨S96, .f32⟩
  | .hbm, ⟨6, _⟩ => ⟨S96x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S16x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128x128, .f32⟩
  | .hbm, ⟨17, _⟩ => ⟨S128, .f32⟩
  | .hbm, ⟨18, _⟩ => ⟨S1x800000, .i32⟩
  | .hbm, ⟨19, _⟩ => ⟨S800000, .i32⟩
  | .hbm, ⟨20, _⟩ => ⟨S1x800000, .i32⟩
  | .hbm, ⟨21, _⟩ => ⟨S800000, .i32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x96, .f32⟩
  | .hbm, ⟨31, _⟩ => ⟨S800000x96, .f32⟩
  | .hbm, ⟨32, _⟩ => ⟨S800000x96, .f32⟩
  | .hbm, ⟨33, _⟩ => ⟨S1x96, .f32⟩
  | .hbm, ⟨34, _⟩ => ⟨S800000x96, .f32⟩
  | .hbm, ⟨35, _⟩ => ⟨S800000x96, .f32⟩
  | .hbm, ⟨36, _⟩ => ⟨S_, .f32⟩
  | .hbm, ⟨37, _⟩ => ⟨S800000x96, .f32⟩
  | .hbm, ⟨38, _⟩ => ⟨S800000x96, .f32⟩
  | .hbm, ⟨39, _⟩ => ⟨S_, .f32⟩
  | .hbm, ⟨40, _⟩ => ⟨S50000x96, .f32⟩
  | .hbm, ⟨41, _⟩ => ⟨S800000x1, .i32⟩
  | .hbm, ⟨42, _⟩ => ⟨S50000x96, .f32⟩
  | .hbm, ⟨43, _⟩ => ⟨S_, .f32⟩
  | .hbm, ⟨44, _⟩ => ⟨S50000x96, .f32⟩
  | .hbm, ⟨45, _⟩ => ⟨S50000x96, .f32⟩
  | .hbm, ⟨46, _⟩ => ⟨S50000x96, .f32⟩
  | .hbm, ⟨47, _⟩ => ⟨S50000x128, .f32⟩
  | .hbm, ⟨48, _⟩ => ⟨S1x128, .f32⟩
  | .hbm, ⟨49, _⟩ => ⟨S50000x128, .f32⟩
  | .hbm, ⟨50, _⟩ => ⟨S50000x128, .f32⟩
  | .hbm, ⟨51, _⟩ => ⟨S_, .f32⟩
  | .hbm, ⟨52, _⟩ => ⟨S50000x128, .f32⟩
  | .hbm, ⟨53, _⟩ => ⟨S50000x128, .f32⟩
  | .hbm, ⟨54, _⟩ => ⟨S50000x128, .f32⟩
  | .hbm, ⟨55, _⟩ => ⟨S1x128, .f32⟩
  | .hbm, ⟨56, _⟩ => ⟨S50000x128, .f32⟩
  | .hbm, ⟨57, _⟩ => ⟨S50000x128, .f32⟩
  | .hbm, ⟨58, _⟩ => ⟨S_, .f32⟩
  | .hbm, ⟨59, _⟩ => ⟨S50000x128, .f32⟩
  | .hbm, ⟨60, _⟩ => ⟨S50000x128, .f32⟩
  | .hbm, ⟨61, _⟩ => ⟨S_, .i32⟩
  | .hbm, ⟨62, _⟩ => ⟨S800000, .i32⟩
  | .hbm, ⟨63, _⟩ => ⟨S800000, .i1⟩
  | .hbm, ⟨64, _⟩ => ⟨S_, .i32⟩
  | .hbm, ⟨65, _⟩ => ⟨S800000, .i32⟩
  | .hbm, ⟨66, _⟩ => ⟨S800000, .i32⟩
  | .hbm, ⟨67, _⟩ => ⟨S800000, .i32⟩
  | .hbm, ⟨68, _⟩ => ⟨S800000x1, .i32⟩
  | .hbm, ⟨69, _⟩ => ⟨S800000x128, .f32⟩
  | .hbm, ⟨70, _⟩ => ⟨S800000x128, .f32⟩
  | .hbm, ⟨71, _⟩ => ⟨S800000x128, .f32⟩
  | .hbm, ⟨72, _⟩ => ⟨S1x128, .f32⟩
  | .hbm, ⟨73, _⟩ => ⟨S800000x128, .f32⟩
  | .hbm, ⟨74, _⟩ => ⟨S800000x128, .f32⟩
  | .hbm, ⟨75, _⟩ => ⟨S_, .f32⟩
  | .hbm, ⟨76, _⟩ => ⟨S800000x128, .f32⟩
  | .hbm, ⟨77, _⟩ => ⟨S800000x128, .f32⟩
  | .hbm, ⟨78, _⟩ => ⟨S_, .f32⟩
  | .hbm, ⟨79, _⟩ => ⟨S50000x128, .f32⟩
  | .hbm, ⟨80, _⟩ => ⟨S800000x1, .i32⟩
  | .hbm, ⟨81, _⟩ => ⟨S50000x128, .f32⟩
  | .hbm, ⟨82, _⟩ => ⟨S_, .f32⟩
  | .hbm, ⟨83, _⟩ => ⟨S50000x128, .f32⟩
  | .hbm, ⟨84, _⟩ => ⟨S50000x128, .f32⟩
  | .hbm, ⟨85, _⟩ => ⟨S50000x128, .f32⟩
  | .hbm, ⟨86, _⟩ => ⟨S50000x128, .f32⟩
  | .hbm, ⟨87, _⟩ => ⟨S1x128, .f32⟩
  | .hbm, ⟨88, _⟩ => ⟨S50000x128, .f32⟩
  | .hbm, ⟨89, _⟩ => ⟨S50000x128, .f32⟩
  | .hbm, ⟨90, _⟩ => ⟨S_, .f32⟩
  | .hbm, ⟨91, _⟩ => ⟨S50000x128, .f32⟩
  | .hbm, ⟨92, _⟩ => ⟨S50000x128, .f32⟩
  | .hbm, ⟨93, _⟩ => ⟨S50000x128, .f32⟩
  | .hbm, ⟨94, _⟩ => ⟨S1x128, .f32⟩
  | .hbm, ⟨95, _⟩ => ⟨S50000x128, .f32⟩
  | .hbm, ⟨96, _⟩ => ⟨S50000x128, .f32⟩
  | .hbm, ⟨97, _⟩ => ⟨S_, .f32⟩
  | .hbm, ⟨98, _⟩ => ⟨S50000x128, .f32⟩
  | .hbm, ⟨99, _⟩ => ⟨S50000x128, .f32⟩
  | .hbm, ⟨100, _⟩ => ⟨S_, .f32⟩
  | .hbm, ⟨101, _⟩ => ⟨S512x128, .f32⟩
  | .hbm, ⟨102, _⟩ => ⟨S50000x1, .i32⟩
  | .hbm, ⟨103, _⟩ => ⟨S512x128, .f32⟩
  | .hbm, ⟨104, _⟩ => ⟨S512x128, .f32⟩
  | .hbm, ⟨105, _⟩ => ⟨S1x128, .f32⟩
  | .hbm, ⟨106, _⟩ => ⟨S512x128, .f32⟩
  | .hbm, ⟨107, _⟩ => ⟨S512x128, .f32⟩
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_call0_cst : Ref sig .tc := ⟨.hbm, 36, rfl⟩
abbrev main_call0_v0 : Ref sig .tc := ⟨.hbm, 37, rfl⟩
abbrev main_v16 : Ref sig .tc := ⟨.hbm, 38, rfl⟩
abbrev main_cst : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_cst_1 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_call1_cst : Ref sig .tc := ⟨.hbm, 51, rfl⟩
abbrev main_call1_v0 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_call2_cst : Ref sig .tc := ⟨.hbm, 58, rfl⟩
abbrev main_call2_v0 : Ref sig .tc := ⟨.hbm, 59, rfl⟩
abbrev main_v32 : Ref sig .tc := ⟨.hbm, 60, rfl⟩
abbrev main_c_2 : Ref sig .tc := ⟨.hbm, 61, rfl⟩
abbrev main_v33 : Ref sig .tc := ⟨.hbm, 62, rfl⟩
abbrev main_v34 : Ref sig .tc := ⟨.hbm, 63, rfl⟩
abbrev main_c_3 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_call3_cst : Ref sig .tc := ⟨.hbm, 75, rfl⟩
abbrev main_call3_v0 : Ref sig .tc := ⟨.hbm, 76, rfl⟩
abbrev main_v45 : Ref sig .tc := ⟨.hbm, 77, rfl⟩
abbrev main_cst_4 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_cst_5 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_call4_cst : Ref sig .tc := ⟨.hbm, 90, rfl⟩
abbrev main_call4_v0 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_call5_cst : Ref sig .tc := ⟨.hbm, 97, rfl⟩
abbrev main_call5_v0 : Ref sig .tc := ⟨.hbm, 98, rfl⟩
abbrev main_v61 : Ref sig .tc := ⟨.hbm, 99, rfl⟩
abbrev main_cst_6 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S96_S1x96_1 : S96.BroadcastsInDim S1x96 (![1] : Fin 1 → Fin S1x96.rank)
  bcast_S1x96_S800000x96_0_1 : S1x96.BroadcastsInDim S800000x96 (![0, 1] : Fin 2 → Fin S800000x96.rank)
  bcast_S_S800000x96 : S_.BroadcastsInDim S800000x96 (![] : Fin 0 → Fin S800000x96.rank)
  bcast_S_S50000x96 : S_.BroadcastsInDim S50000x96 (![] : Fin 0 → Fin S50000x96.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S_S512x128 : S_.BroadcastsInDim S512x128 (![] : Fin 0 → Fin S512x128.rank)
  bcast_S50000_S50000x1_0 : S50000.BroadcastsInDim S50000x1 (![0] : Fin 1 → Fin S50000x1.rank)
  bcast_S1x128_S512x128_0_1 : S1x128.BroadcastsInDim S512x128 (![0, 1] : Fin 2 → Fin S512x128.rank)
  gather_S50000x96_S800000x1_S800000x96_1_0_n_n_0_1_196_wf : GatherDims.WF S50000x96 S800000x1 S800000x96 [1] [0] [] [0] [] 1 ![1, 96]
  dot_S800000x16_S16x96_S800000x96_1_0_0_1_n_n_wf : DotDims.WF S800000x16 S16x96 S800000x96 [1] [0] [0] [1] [] []
  scatter_S50000x96_S800000x1_S800000x96_1_0_0_1_wf : ScatterDims.WF S50000x96 S800000x1 S800000x96 [1] [0] [0] 1
  dot_S50000x96_S96x128_S50000x128_1_0_0_1_n_n_wf : DotDims.WF S50000x96 S96x128 S50000x128 [1] [0] [0] [1] [] []
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  dot_S800000x16_S16x128_S800000x128_1_0_0_1_n_n_wf : DotDims.WF S800000x16 S16x128 S800000x128 [1] [0] [0] [1] [] []
  scatter_S50000x128_S800000x1_S800000x128_1_0_0_1_wf : ScatterDims.WF S50000x128 S800000x1 S800000x128 [1] [0] [0] 1
  scatter_S512x128_S50000x1_S50000x128_1_0_0_1_wf : ScatterDims.WF S512x128 S50000x1 S50000x128 [1] [0] [0] 1
  dot_S512x128_S128x128_S512x128_1_0_0_1_n_n_wf : DotDims.WF S512x128 S128x128 S512x128 [1] [0] [0] [1] [] []

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def dot_S800000x16_S16x96_S800000x96_1_0_0_1_n_n : DotDims S800000x16 S16x96 S800000x96 where
  lhsContracting := [1]
  rhsContracting := [0]
  lhsNonContracting := [0]
  rhsNonContracting := [1]
  lhsBatch := []
  rhsBatch := []
  wf := dot_S800000x16_S16x96_S800000x96_1_0_0_1_n_n_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S50000x96_S96x128_S50000x128_1_0_0_1_n_n : DotDims S50000x96 S96x128 S50000x128 where
  lhsContracting := [1]
  rhsContracting := [0]
  lhsNonContracting := [0]
  rhsNonContracting := [1]
  lhsBatch := []
  rhsBatch := []
  wf := dot_S50000x96_S96x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x16_S16x128_S800000x128_1_0_0_1_n_n : DotDims S800000x16 S16x128 S800000x128 where
  lhsContracting := [1]
  rhsContracting := [0]
  lhsNonContracting := [0]
  rhsNonContracting := [1]
  lhsBatch := []
  rhsBatch := []
  wf := dot_S800000x16_S16x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf

class Facts : Prop extends Facts₀ where

variable [Facts]
-- ==== Proof.KernelRun.lean ====
/-
  The kernel program's run with its result named.

  The program is five stretches of host operations around four kernel launches. Its frame theorem follows the buffers'
  contents through those nine segments: after each stretch they are the stretch's operations applied to what was
  there before; after each launch the launch's arrays hold what its write-backs leave and every other buffer is as it
  was. That fold ends at the contents `W9`. The frame theorem reads only the argument arrays off the final state;
  here the same run is stated with one more fact read off it: the result buffer ends at `W9` of itself. What that
  value is, as a function of the arguments, is the business of the module that follows the fold back.
-/
import proofs.«140540_j43258910605922_2_alg».proof.Proof.Gen.KernelIdeal.Frame

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the result buffer ends at the last boundary's contents
    of itself, and the argument arrays end as launched. -/
theorem run_named : θ_run defs (onTc (τ := τ) (main (F := F))) ⟨m, fun _ => 0, ρ⟩ (fun r => ∀ c : Dev nD,
      r.2.mem ((c.tc : Thread nD τ).loc main_v40) = W9 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v40 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c),
       (h c _ (mem_uc main_arg13 (by decide))).trans (W9_main_arg13 m ρ c),
       (h c _ (mem_uc main_arg14 (by decide))).trans (W9_main_arg14 m ρ c),
       (h c _ (mem_uc main_arg15 (by decide))).trans (W9_main_arg15 m ρ c),
       (h c _ (mem_uc main_arg16 (by decide))).trans (W9_main_arg16 m ρ c),
       (h c _ (mem_uc main_arg17 (by decide))).trans (W9_main_arg17 m ρ c)⟩)

end Cert.KernelIdeal.Named

end
-- ==== Proof.LibTileMatmul.lean ====
/-
  A plain matrix product read at an index, at the extended reals, and the bridge between a ROW TILE's product and
  the whole array's.

  Both a `tpu.matmul` into the zero accumulator and a host `dot_general`, with the dimension numbers of the plain
  product (the left operand's axis 1 contracted against the right operand's axis 0, no batch axis), are at output
  index (a, b) the finite sum `∑ c, A (a, c) * B (c, b)` over the contracted coordinate. No rounding is left at the
  extended reals, so the two sums have literally the same terms, and a product of a row tile `T` of `X` (row `p` of
  the tile is row `r + p` of `X`) with `B` is, row by row, the product of `X` with `B`.

  Stated over the library only: the dimension-number record is spelt with its six lists and ANY proof `w` of its
  side conditions, which is how a printed program's record unfolds.
-/
import Idealize.ShloMosaic.PureOps.Ideal.Laws
import Idealize.ShloMosaic.Lib.ValueIdx

noncomputable section

open scoped BigOperators

namespace Idealize.ShloMosaic.TileMatmul

open Idealize.ShloMosaic Idealize.ShloMosaic.ValueIdx

variable {m k n : Nat} {φ₁ φ₂ : FTy}

/-- The plain product's dimension numbers over [m, k] × [k, n] → [m, n], from any proof of their side conditions. -/
abbrev plainDims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left operand's index at output index (a, b) and contracted coordinate c is (a, c). -/
theorem lhsIdx_plain (w : DotDims.WF ⟨2, ![m, k]⟩ ⟨2, ![k, n]⟩ ⟨2, ![m, n]⟩ [1] [0] [0] [1] [] [])
    (a : Fin m) (b : Fin n) (c : Fin k) :
    (plainDims w).lhsIdx (ix2 a b) ((contrEquiv1 (plainDims w) k rfl rfl).symm c) = ix2 a c := by
  have c2 := contrEquiv1_symm_val (plainDims w) k rfl rfl c
  funext ax; apply Fin.ext
  match ax with
  | ⟨0, _⟩ => simp [DotDims.lhsIdx]; rfl
  | ⟨1, _⟩ => simp [DotDims.lhsIdx]; exact c2

/-- The right operand's index there is (c, b). -/
theorem rhsIdx_plain (w : DotDims.WF ⟨2, ![m, k]⟩ ⟨2, ![k, n]⟩ ⟨2, ![m, n]⟩ [1] [0] [0] [1] [] [])
    (a : Fin m) (b : Fin n) (c : Fin k) :
    (plainDims w).rhsIdx (ix2 a b) ((contrEquiv1 (plainDims w) k rfl rfl).symm c) = ix2 c b := by
  have c2 := contrEquiv1_symm_val (plainDims w) k rfl rfl c
  funext ax; apply Fin.ext
  match ax with
  | ⟨0, _⟩ => simp [DotDims.rhsIdx]; exact c2
  | ⟨1, _⟩ => simp [DotDims.rhsIdx]; rfl

/-- A `tpu.matmul` with the plain product's dimension numbers into the zero accumulator, at (a, b): the sum over the
    contracted coordinate of the products of the entries. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (F := Ideal) (plainDims w) prec A B (constant (F := Ideal) ⟨2, ![m, n]⟩ .f32 0x00000000#32) (ix2 a b)
      = ∑ c : Fin k, A (ix2 a c) * B (ix2 c b) := by
  show FloatOps.matmul (plainDims w) prec A B (constant ⟨2, ![m, n]⟩ .f32 0x00000000#32) (ix2 a b) = _
  rw [Ideal.matmul_constant_zero_apply, ← Equiv.sum_comp (contrEquiv1 (plainDims w) k rfl rfl).symm]
  refine Finset.sum_congr rfl fun c _ => ?_
  rw [lhsIdx_plain, rhsIdx_plain]

/-- A host `dot_general` with the same dimension numbers, at (a, b): the same sum. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (F := Ideal) (plainDims w) prec A B (ix2 a b) = ∑ c : Fin k, A (ix2 a c) * B (ix2 c b) := by
  show FloatOps.dotGeneral (plainDims w) prec _ A B (ix2 a b) = _
  rw [Ideal.dotGeneral_apply, ← Equiv.sum_comp (contrEquiv1 (plainDims w) k rfl rfl).symm]
  refine Finset.sum_congr rfl fun c _ => ?_
  rw [lhsIdx_plain, rhsIdx_plain]

/-- THE BRIDGE. `T` is a tile of `M'` rows of `X` starting at row `r` (`hT`: entry (p, c) of the tile is entry
    (r + p, c) of `X`; the two may carry different float formats, which are one type at the extended reals). Then the
    tile's product with `B` into the zero accumulator, at (p, q), is the whole product `X · B` at (r + p, q). -/
theorem matmul_tile_eq_dotGeneral {M : Nat} {ψ₁ ψ₂ : FTy}
    (wT : DotDims.WF ⟨2, ![m, k]⟩ ⟨2, ![k, n]⟩ ⟨2, ![m, n]⟩ [1] [0] [0] [1] [] [])
    (wX : DotDims.WF ⟨2, ![M, k]⟩ ⟨2, ![k, n]⟩ ⟨2, ![M, n]⟩ [1] [0] [0] [1] [] [])
    (prec prec' : Option ContractPrecision)
    (T : FVec Ideal ⟨2, ![m, k]⟩ φ₁) (B : FVec Ideal ⟨2, ![k, n]⟩ φ₂)
    (X : FVec Ideal ⟨2, ![M, k]⟩ ψ₁) (B' : FVec Ideal ⟨2, ![k, n]⟩ ψ₂)
    (p : Fin m) (q : Fin n) (i : Fin M)
    (hT : ∀ c : Fin k, (T (ix2 p c) : EReal) = X (ix2 i c)) (hB : ∀ c : Fin k, (B (ix2 c q) : EReal) = B' (ix2 c q)) :
    (matmul (F := Ideal) (plainDims wT) prec T B (constant (F := Ideal) ⟨2, ![m, n]⟩ .f32 0x00000000#32) (ix2 p q) : EReal)
      = Host.dotGeneral (F := Ideal) (plainDims wX) prec' X B' (ix2 i q) := by
  rw [matmul_zero_apply, dotGeneral_apply]
  exact Finset.sum_congr rfl fun c _ => by rw [hT c, hB c]

end Idealize.ShloMosaic.TileMatmul

end
-- ==== Proof.Stages.lean ====
/-
  The two stages of the message-passing network over the extended reals, entry by entry, and the two spellings each
  stage has in the programs.

  EDGE MESSAGE.  For edge e and feature d,
      msg (e, d) = max ((xs (e, d) + Σ_k ea (e, k) · We (k, d)) + be (d), 0),
  where xs is the source node's row already gathered, ea the edge attributes, We and be the edge layer's weights and
  bias (the bias laid out as a one-row table).

  NODE UPDATE.  For node n, with x the node's features and agg the sum of its incoming messages,
      hid  (n, h) = max ((Σ_c (x (n, c) + agg (n, c)) · W1 (c, h)) + b1 (h), 0)
      node (n, j) = max ((Σ_h hid (n, h) · W2 (h, j)) + b2 (j), 0).

  A row of either result depends only on the same row of xs / ea (of x / agg), so a tile of rows computes exactly the
  rows of the whole array it holds: the tile's matrix product into a zero accumulator and the whole array's
  contraction are the same finite sum, entry by entry.  The host program writes the residual as 1 · x + agg; on the
  extended reals 1 · x = x for every x, infinite ones included, so nothing about finiteness is used.
-/
import Idealize.ShloMosaic.PureOps.Ideal.Laws
import Idealize.ShloMosaic.Lib.ValueIdx
import Idealize.ShloMosaic.Lib.ValueLayout
import Idealize.ShloMosaic.Lib.Pipeline.Value
import proofs.«140540_j43258910605922_2_alg».proof.Proof.LibTileMatmul

noncomputable section

open scoped BigOperators

namespace Cert.Stages

open Idealize.ShloMosaic Idealize.ShloMosaic.ValueIdx Idealize.ShloMosaic.TileMatmul

/-- The single-precision word of 1.0 denotes the real number one. -/
theorem ofBits_one_f32 : Ideal.ofBits .f32 0x3F800000#32 = 1 := by
  simp [Ideal.ofBits, Ideal.ieee, -EReal.coe_mul]; norm_num

/-! ## Layout steps read at an index -/

section Layout
variable {α : Type}

/-- A vector laid as a one-row table and repeated down E rows holds, at (e, d), the vector's entry d. -/
theorem rows_of_vec_apply {E D : Nat} (h1 : (⟨1, ![D]⟩ : Shape).BroadcastsInDim ⟨2, ![1, D]⟩ ![1])
    (h2 : (⟨2, ![1, D]⟩ : Shape).BroadcastsInDim ⟨2, ![E, D]⟩ ![0, 1]) (b : (⟨1, ![D]⟩ : Shape).Idx → α)
    (e : Fin E) (d : Fin D) :
    broadcastInDim ⟨2, ![E, D]⟩ ![0, 1] h2 (broadcastInDim ⟨2, ![1, D]⟩ ![1] h1 b) (ix2 e d) = b (ix1 d) := by
  have hd := d.isLt
  refine (broadcastInDim_apply _ h2 _ (ix2 e d) (ix2 (0 : Fin 1) d) ?_).trans
    (broadcastInDim_apply _ h1 b (ix2 (0 : Fin 1) d) (ix1 d) ?_)
  · intro a
    match a with
    | ⟨0, _⟩ => show (0 : Nat) = if (1 : Nat) = 1 then 0 else e.val; rw [if_pos rfl]
    | ⟨1, _⟩ => show d.val = if D = 1 then 0 else d.val; split <;> omega
  · intro a
    match a with
    | ⟨0, _⟩ => show d.val = if D = 1 then 0 else d.val; split <;> omega

/-- The zero word spread over a whole array is zero at every index. -/
theorem zeros_apply {s : Shape} (h0 : (⟨0, ![]⟩ : Shape).BroadcastsInDim s ![]) (i : s.Idx) :
    broadcastInDim s ![] h0 (constant (F := Ideal) ⟨0, ![]⟩ .f32 0x00000000#32) i = (0 : EReal) := by
  rw [broadcastInDim_apply ![] h0 _ i ix0 (fun a => a.elim0), constant_apply, Ideal.ofBits_zero_f32]

/-- The word of 1.0 spread over a whole array is one at every index. -/
theorem ones_apply {s : Shape} (h0 : (⟨0, ![]⟩ : Shape).BroadcastsInDim s ![]) (i : s.Idx) :
    broadcastInDim s ![] h0 (constant (F := Ideal) ⟨0, ![]⟩ .f32 0x3F800000#32) i = (1 : EReal) := by
  rw [broadcastInDim_apply ![] h0 _ i ix0 (fun a => a.elim0), constant_apply, ofBits_one_f32]

end Layout

/-! ## The edge message -/

section Msg
variable {E K D : Nat}

/-- The edge message at edge e, feature d. -/
def msgAt (ea : FVec Ideal ⟨2, ![E, K]⟩ .f32) (xs : FVec Ideal ⟨2, ![E, D]⟩ .f32) (We : FVec Ideal ⟨2, ![K, D]⟩ .f32)
    (be : FVec Ideal ⟨2, ![1, D]⟩ .f32) (e : Fin E) (d : Fin D) : EReal :=
  max ((xs (ix2 e d) + ∑ k : Fin K, ea (ix2 e k) * We (ix2 k d)) + be (ix2 (0 : Fin 1) d)) 0

/-- The edge messages as one array. -/
def msg (ea : FVec Ideal ⟨2, ![E, K]⟩ .f32) (xs : FVec Ideal ⟨2, ![E, D]⟩ .f32) (We : FVec Ideal ⟨2, ![K, D]⟩ .f32)
    (be : FVec Ideal ⟨2, ![1, D]⟩ .f32) : FVec Ideal ⟨2, ![E, D]⟩ .f32 :=
  fun i => msgAt ea xs We be (i 0) (i 1)

theorem msg_apply (ea : FVec Ideal ⟨2, ![E, K]⟩ .f32) (xs : FVec Ideal ⟨2, ![E, D]⟩ .f32) (We : FVec Ideal ⟨2, ![K, D]⟩ .f32)
    (be : FVec Ideal ⟨2, ![1, D]⟩ .f32) (e : Fin E) (d : Fin D) : msg ea xs We be (ix2 e d) = msgAt ea xs We be e d := rfl

/-- The message at (e, d) reads row e of xs and ea, column d of We and entry d of the bias, nothing else: two sets
    of operands that agree there give the same message (the two edge axes may even have different lengths). -/
theorem msgAt_congr {E' : Nat} (ea : FVec Ideal ⟨2, ![E, K]⟩ .f32) (xs : FVec Ideal ⟨2, ![E, D]⟩ .f32)
    (We : FVec Ideal ⟨2, ![K, D]⟩ .f32) (be : FVec Ideal ⟨2, ![1, D]⟩ .f32)
    (ea' : FVec Ideal ⟨2, ![E', K]⟩ .f32) (xs' : FVec Ideal ⟨2, ![E', D]⟩ .f32)
    (We' : FVec Ideal ⟨2, ![K, D]⟩ .f32) (be' : FVec Ideal ⟨2, ![1, D]⟩ .f32) (e : Fin E) (e' : Fin E') (d : Fin D)
    (hx : xs (ix2 e d) = xs' (ix2 e' d)) (ha : ∀ k : Fin K, ea (ix2 e k) = ea' (ix2 e' k))
    (hw : ∀ k : Fin K, We (ix2 k d) = We' (ix2 k d)) (hb : be (ix2 (0 : Fin 1) d) = be' (ix2 (0 : Fin 1) d)) :
    msgAt ea xs We be e d = msgAt ea' xs' We' be' e' d := by
  unfold msgAt
  rw [hx, hb, Finset.sum_congr rfl fun k _ => by rw [ha k, hw k]]

/-- The host program's spelling: relu ((xs + ea · We) + be), the bias vector repeated down the rows. -/
theorem msg_host (w : DotDims.WF ⟨2, ![E, K]⟩ ⟨2, ![K, D]⟩ ⟨2, ![E, D]⟩ [1] [0] [0] [1] [] [])
    (prec : Option ContractPrecision)
    (h1 : (⟨1, ![D]⟩ : Shape).BroadcastsInDim ⟨2, ![1, D]⟩ ![1])
    (h2 : (⟨2, ![1, D]⟩ : Shape).BroadcastsInDim ⟨2, ![E, D]⟩ ![0, 1])
    (h0 : (⟨0, ![]⟩ : Shape).BroadcastsInDim ⟨2, ![E, D]⟩ ![])
    (hr : (⟨1, ![D]⟩ : Shape).ShapeCasts ⟨2, ![1, D]⟩)
    (ea : FVec Ideal ⟨2, ![E, K]⟩ .f32) (xs : FVec Ideal ⟨2, ![E, D]⟩ .f32) (We : FVec Ideal ⟨2, ![K, D]⟩ .f32)
    (b : FVec Ideal ⟨1, ![D]⟩ .f32) :
    maximumf (F := Ideal) (addf (addf xs (Host.dotGeneral (F := Ideal) (plainDims w) prec ea We))
        (broadcastInDim ⟨2, ![E, D]⟩ ![0, 1] h2 (broadcastInDim ⟨2, ![1, D]⟩ ![1] h1 b)))
      (broadcastInDim ⟨2, ![E, D]⟩ ![] h0 (constant (F := Ideal) ⟨0, ![]⟩ .f32 0x00000000#32))
      = msg ea xs We (shapeCast ⟨2, ![1, D]⟩ b hr) := by
  funext i
  obtain ⟨e, d, rfl⟩ : ∃ (e : Fin E) (d : Fin D), i = ix2 e d := ⟨i 0, i 1, eq_ix2 i⟩
  rw [msg_apply]
  show max ((xs (ix2 e d) + Host.dotGeneral (F := Ideal) (plainDims w) prec ea We (ix2 e d))
      + broadcastInDim ⟨2, ![E, D]⟩ ![0, 1] h2 (broadcastInDim ⟨2, ![1, D]⟩ ![1] h1 b) (ix2 e d))
      (broadcastInDim ⟨2, ![E, D]⟩ ![] h0 (constant (F := Ideal) ⟨0, ![]⟩ .f32 0x00000000#32) (ix2 e d)) = _
  rw [zeros_apply, rows_of_vec_apply, TileMatmul.dotGeneral_apply]
  unfold msgAt
  rw [shapeCast_a_1a_apply]

/-- The kernel tile's spelling, at row p and feature q of a tile of m rows: the tile's matrix product into a zero
    accumulator, the bias row repeated down the tile, the maximum with the zero word. -/
theorem msg_tile {m : Nat} (w : DotDims.WF ⟨2, ![m, K]⟩ ⟨2, ![K, D]⟩ ⟨2, ![m, D]⟩ [1] [0] [0] [1] [] [])
    (prec : Option ContractPrecision)
    (hc : (⟨2, ![m, D]⟩ : Shape).ShapeCasts ⟨2, ![m, D]⟩) (hr : (⟨2, ![1, D]⟩ : Shape).ShapeCasts ⟨2, ![1, D]⟩)
    (hb : (⟨2, ![1, D]⟩ : Shape).Broadcasts ⟨2, ![m, D]⟩)
    (v0 : FVec Ideal ⟨2, ![m, K]⟩ .f32) (v1 : FVec Ideal ⟨2, ![K, D]⟩ .f32) (v3 : FVec Ideal ⟨2, ![m, D]⟩ .f32)
    (v6 : FVec Ideal ⟨2, ![1, D]⟩ .f32) (p : Fin m) (q : Fin D) :
    maximumf (F := Ideal) (addf (addf (shapeCast ⟨2, ![m, D]⟩ v3 hc)
          (matmul (F := Ideal) (plainDims w) prec v0 v1 (constant (F := Ideal) ⟨2, ![m, D]⟩ .f32 0x00000000#32)))
        (broadcastTo ⟨2, ![m, D]⟩ (shapeCast ⟨2, ![1, D]⟩ v6 hr) hb))
      (broadcast ⟨2, ![m, D]⟩ (Scalar.ofBits (F := Ideal) .f32 0x00000000#32)) (ix2 p q)
      = msgAt v0 v3 v1 v6 p q := by
  show max ((shapeCast ⟨2, ![m, D]⟩ v3 hc (ix2 p q)
        + matmul (F := Ideal) (plainDims w) prec v0 v1 (constant (F := Ideal) ⟨2, ![m, D]⟩ .f32 0x00000000#32) (ix2 p q))
      + broadcastTo ⟨2, ![m, D]⟩ (shapeCast ⟨2, ![1, D]⟩ v6 hr) hb (ix2 p q)) (Ideal.ofBits .f32 0x00000000#32) = _
  rw [shapeCast_self, shapeCast_self, broadcastTo_1b_ab_apply, TileMatmul.matmul_zero_apply, Ideal.ofBits_zero_f32]
  rfl

end Msg

/-! ## The node update -/

section Node
variable {N D H J : Nat}

/-- The hidden layer at node n, unit h. -/
def hidAt (x agg : FVec Ideal ⟨2, ![N, D]⟩ .f32) (W1 : FVec Ideal ⟨2, ![D, H]⟩ .f32) (b1 : FVec Ideal ⟨2, ![1, H]⟩ .f32)
    (n : Fin N) (h : Fin H) : EReal :=
  max ((∑ c : Fin D, (x (ix2 n c) + agg (ix2 n c)) * W1 (ix2 c h)) + b1 (ix2 (0 : Fin 1) h)) 0

/-- The updated features at node n, feature j. -/
def nodeAt (x agg : FVec Ideal ⟨2, ![N, D]⟩ .f32) (W1 : FVec Ideal ⟨2, ![D, H]⟩ .f32) (b1 : FVec Ideal ⟨2, ![1, H]⟩ .f32)
    (W2 : FVec Ideal ⟨2, ![H, J]⟩ .f32) (b2 : FVec Ideal ⟨2, ![1, J]⟩ .f32) (n : Fin N) (j : Fin J) : EReal :=
  max ((∑ h : Fin H, hidAt x agg W1 b1 n h * W2 (ix2 h j)) + b2 (ix2 (0 : Fin 1) j)) 0

/-- The updated features as one array. -/
def node (x agg : FVec Ideal ⟨2, ![N, D]⟩ .f32) (W1 : FVec Ideal ⟨2, ![D, H]⟩ .f32) (b1 : FVec Ideal ⟨2, ![1, H]⟩ .f32)
    (W2 : FVec Ideal ⟨2, ![H, J]⟩ .f32) (b2 : FVec Ideal ⟨2, ![1, J]⟩ .f32) : FVec Ideal ⟨2, ![N, J]⟩ .f32 :=
  fun i => nodeAt x agg W1 b1 W2 b2 (i 0) (i 1)

theorem node_apply (x agg : FVec Ideal ⟨2, ![N, D]⟩ .f32) (W1 : FVec Ideal ⟨2, ![D, H]⟩ .f32) (b1 : FVec Ideal ⟨2, ![1, H]⟩ .f32)
    (W2 : FVec Ideal ⟨2, ![H, J]⟩ .f32) (b2 : FVec Ideal ⟨2, ![1, J]⟩ .f32) (n : Fin N) (j : Fin J) :
    node x agg W1 b1 W2 b2 (ix2 n j) = nodeAt x agg W1 b1 W2 b2 n j := rfl

/-- The hidden entry (n, h) reads row n of x and agg, column h of W1 and entry h of the bias. -/
theorem hidAt_congr {N' : Nat} (x agg : FVec Ideal ⟨2, ![N, D]⟩ .f32) (W1 : FVec Ideal ⟨2, ![D, H]⟩ .f32)
    (b1 : FVec Ideal ⟨2, ![1, H]⟩ .f32) (x' agg' : FVec Ideal ⟨2, ![N', D]⟩ .f32) (W1' : FVec Ideal ⟨2, ![D, H]⟩ .f32)
    (b1' : FVec Ideal ⟨2, ![1, H]⟩ .f32) (n : Fin N) (n' : Fin N') (h : Fin H)
    (hx : ∀ c : Fin D, x (ix2 n c) = x' (ix2 n' c)) (hg : ∀ c : Fin D, agg (ix2 n c) = agg' (ix2 n' c))
    (hw : ∀ c : Fin D, W1 (ix2 c h) = W1' (ix2 c h)) (hb : b1 (ix2 (0 : Fin 1) h) = b1' (ix2 (0 : Fin 1) h)) :
    hidAt x agg W1 b1 n h = hidAt x' agg' W1' b1' n' h := by
  unfold hidAt
  rw [hb, Finset.sum_congr rfl fun c _ => by rw [hx c, hg c, hw c]]

/-- The updated entry (n, j) reads row n of x and agg, all of W1 and b1, column j of W2 and entry j of its bias. -/
theorem nodeAt_congr {N' : Nat} (x agg : FVec Ideal ⟨2, ![N, D]⟩ .f32) (W1 : FVec Ideal ⟨2, ![D, H]⟩ .f32)
    (b1 : FVec Ideal ⟨2, ![1, H]⟩ .f32) (W2 : FVec Ideal ⟨2, ![H, J]⟩ .f32) (b2 : FVec Ideal ⟨2, ![1, J]⟩ .f32)
    (x' agg' : FVec Ideal ⟨2, ![N', D]⟩ .f32) (W1' : FVec Ideal ⟨2, ![D, H]⟩ .f32) (b1' : FVec Ideal ⟨2, ![1, H]⟩ .f32)
    (W2' : FVec Ideal ⟨2, ![H, J]⟩ .f32) (b2' : FVec Ideal ⟨2, ![1, J]⟩ .f32) (n : Fin N) (n' : Fin N') (j : Fin J)
    (hx : ∀ c : Fin D, x (ix2 n c) = x' (ix2 n' c)) (hg : ∀ c : Fin D, agg (ix2 n c) = agg' (ix2 n' c))
    (hw1 : ∀ (c : Fin D) (h : Fin H), W1 (ix2 c h) = W1' (ix2 c h))
    (hb1 : ∀ h : Fin H, b1 (ix2 (0 : Fin 1) h) = b1' (ix2 (0 : Fin 1) h))
    (hw2 : ∀ h : Fin H, W2 (ix2 h j) = W2' (ix2 h j)) (hb2 : b2 (ix2 (0 : Fin 1) j) = b2' (ix2 (0 : Fin 1) j)) :
    nodeAt x agg W1 b1 W2 b2 n j = nodeAt x' agg' W1' b1' W2' b2' n' j := by
  unfold nodeAt
  rw [hb2, Finset.sum_congr rfl fun h _ => by
    rw [hw2 h, hidAt_congr x agg W1 b1 x' agg' W1' b1' n n' h hx hg (fun c => hw1 c h) (hb1 h)]]

/-- The host program's spelling: relu (relu ((1 · x + agg) · W1 + b1) · W2 + b2), each bias vector repeated down
    the rows.  The factor 1 disappears: 1 · x = x on the extended reals. -/
theorem node_host (w1 : DotDims.WF ⟨2, ![N, D]⟩ ⟨2, ![D, H]⟩ ⟨2, ![N, H]⟩ [1] [0] [0] [1] [] [])
    (w2 : DotDims.WF ⟨2, ![N, H]⟩ ⟨2, ![H, J]⟩ ⟨2, ![N, J]⟩ [1] [0] [0] [1] [] [])
    (prec1 prec2 : Option ContractPrecision)
    (o0 : (⟨0, ![]⟩ : Shape).BroadcastsInDim ⟨2, ![N, D]⟩ ![])
    (g1 : (⟨1, ![H]⟩ : Shape).BroadcastsInDim ⟨2, ![1, H]⟩ ![1])
    (g2 : (⟨2, ![1, H]⟩ : Shape).BroadcastsInDim ⟨2, ![N, H]⟩ ![0, 1])
    (g0 : (⟨0, ![]⟩ : Shape).BroadcastsInDim ⟨2, ![N, H]⟩ ![])
    (k1 : (⟨1, ![J]⟩ : Shape).BroadcastsInDim ⟨2, ![1, J]⟩ ![1])
    (k2 : (⟨2, ![1, J]⟩ : Shape).BroadcastsInDim ⟨2, ![N, J]⟩ ![0, 1])
    (k0 : (⟨0, ![]⟩ : Shape).BroadcastsInDim ⟨2, ![N, J]⟩ ![])
    (r1 : (⟨1, ![H]⟩ : Shape).ShapeCasts ⟨2, ![1, H]⟩) (r2 : (⟨1, ![J]⟩ : Shape).ShapeCasts ⟨2, ![1, J]⟩)
    (x agg : FVec Ideal ⟨2, ![N, D]⟩ .f32) (W1 : FVec Ideal ⟨2, ![D, H]⟩ .f32) (b1 : FVec Ideal ⟨1, ![H]⟩ .f32)
    (W2 : FVec Ideal ⟨2, ![H, J]⟩ .f32) (b2 : FVec Ideal ⟨1, ![J]⟩ .f32) :
    maximumf (F := Ideal) (addf (Host.dotGeneral (F := Ideal) (plainDims w2) prec2
          (maximumf (F := Ideal) (addf (Host.dotGeneral (F := Ideal) (plainDims w1) prec1
                (addf (mulf (broadcastInDim ⟨2, ![N, D]⟩ ![] o0 (constant (F := Ideal) ⟨0, ![]⟩ .f32 0x3F800000#32)) x) agg) W1)
              (broadcastInDim ⟨2, ![N, H]⟩ ![0, 1] g2 (broadcastInDim ⟨2, ![1, H]⟩ ![1] g1 b1)))
            (broadcastInDim ⟨2, ![N, H]⟩ ![] g0 (constant (F := Ideal) ⟨0, ![]⟩ .f32 0x00000000#32))) W2)
        (broadcastInDim ⟨2, ![N, J]⟩ ![0, 1] k2 (broadcastInDim ⟨2, ![1, J]⟩ ![1] k1 b2)))
      (broadcastInDim ⟨2, ![N, J]⟩ ![] k0 (constant (F := Ideal) ⟨0, ![]⟩ .f32 0x00000000#32))
      = node x agg W1 (shapeCast ⟨2, ![1, H]⟩ b1 r1) W2 (shapeCast ⟨2, ![1, J]⟩ b2 r2) := by
  funext i
  obtain ⟨n, j, rfl⟩ : ∃ (n : Fin N) (j : Fin J), i = ix2 n j := ⟨i 0, i 1, eq_ix2 i⟩
  rw [node_apply]
  show max (Host.dotGeneral (F := Ideal) (plainDims w2) prec2 _ W2 (ix2 n j)
      + broadcastInDim ⟨2, ![N, J]⟩ ![0, 1] k2 (broadcastInDim ⟨2, ![1, J]⟩ ![1] k1 b2) (ix2 n j))
      (broadcastInDim ⟨2, ![N, J]⟩ ![] k0 (constant (F := Ideal) ⟨0, ![]⟩ .f32 0x00000000#32) (ix2 n j)) = _
  rw [zeros_apply, rows_of_vec_apply, TileMatmul.dotGeneral_apply]
  unfold nodeAt
  rw [shapeCast_a_1a_apply]
  congr 2
  refine Finset.sum_congr rfl fun h _ => ?_
  congr 1
  show max (Host.dotGeneral (F := Ideal) (plainDims w1) prec1 _ W1 (ix2 n h)
      + broadcastInDim ⟨2, ![N, H]⟩ ![0, 1] g2 (broadcastInDim ⟨2, ![1, H]⟩ ![1] g1 b1) (ix2 n h))
      (broadcastInDim ⟨2, ![N, H]⟩ ![] g0 (constant (F := Ideal) ⟨0, ![]⟩ .f32 0x00000000#32) (ix2 n h)) = _
  rw [zeros_apply, rows_of_vec_apply, TileMatmul.dotGeneral_apply]
  unfold hidAt
  rw [shapeCast_a_1a_apply]
  congr 2
  refine Finset.sum_congr rfl fun c _ => ?_
  congr 1
  show broadcastInDim ⟨2, ![N, D]⟩ ![] o0 (constant (F := Ideal) ⟨0, ![]⟩ .f32 0x3F800000#32) (ix2 n c) * x (ix2 n c)
      + agg (ix2 n c) = _
  rw [ones_apply, one_mul]

/-- The kernel tile's spelling, at row p and feature q of a tile of m rows: both matrix products into zero
    accumulators, each bias row repeated down the tile. -/
theorem node_tile {m : Nat} (w1 : DotDims.WF ⟨2, ![m, D]⟩ ⟨2, ![D, H]⟩ ⟨2, ![m, H]⟩ [1] [0] [0] [1] [] [])
    (w2 : DotDims.WF ⟨2, ![m, H]⟩ ⟨2, ![H, J]⟩ ⟨2, ![m, J]⟩ [1] [0] [0] [1] [] [])
    (prec1 prec2 : Option ContractPrecision)
    (hc : (⟨2, ![m, D]⟩ : Shape).ShapeCasts ⟨2, ![m, D]⟩)
    (hr1 : (⟨2, ![1, H]⟩ : Shape).ShapeCasts ⟨2, ![1, H]⟩) (hb1 : (⟨2, ![1, H]⟩ : Shape).Broadcasts ⟨2, ![m, H]⟩)
    (hr2 : (⟨2, ![1, J]⟩ : Shape).ShapeCasts ⟨2, ![1, J]⟩) (hb2 : (⟨2, ![1, J]⟩ : Shape).Broadcasts ⟨2, ![m, J]⟩)
    (v0 v1 : FVec Ideal ⟨2, ![m, D]⟩ .f32) (v4 : FVec Ideal ⟨2, ![D, H]⟩ .f32) (v6 : FVec Ideal ⟨2, ![1, H]⟩ .f32)
    (v12 : FVec Ideal ⟨2, ![H, J]⟩ .f32) (v14 : FVec Ideal ⟨2, ![1, J]⟩ .f32) (p : Fin m) (q : Fin J) :
    maximumf (F := Ideal) (addf (matmul (F := Ideal) (plainDims w2) prec2
          (maximumf (F := Ideal) (addf (matmul (F := Ideal) (plainDims w1) prec1 (addf v0 (shapeCast ⟨2, ![m, D]⟩ v1 hc)) v4
                (constant (F := Ideal) ⟨2, ![m, H]⟩ .f32 0x00000000#32))
              (broadcastTo ⟨2, ![m, H]⟩ (shapeCast ⟨2, ![1, H]⟩ v6 hr1) hb1))
            (broadcast ⟨2, ![m, H]⟩ (Scalar.ofBits (F := Ideal) .f32 0x00000000#32)))
          v12 (constant (F := Ideal) ⟨2, ![m, J]⟩ .f32 0x00000000#32))
        (broadcastTo ⟨2, ![m, J]⟩ (shapeCast ⟨2, ![1, J]⟩ v14 hr2) hb2))
      (broadcast ⟨2, ![m, J]⟩ (Scalar.ofBits (F := Ideal) .f32 0x00000000#32)) (ix2 p q)
      = nodeAt v0 v1 v4 v6 v12 v14 p q := by
  show max (matmul (F := Ideal) (plainDims w2) prec2 _ v12 (constant (F := Ideal) ⟨2, ![m, J]⟩ .f32 0x00000000#32) (ix2 p q)
      + broadcastTo ⟨2, ![m, J]⟩ (shapeCast ⟨2, ![1, J]⟩ v14 hr2) hb2 (ix2 p q)) (Ideal.ofBits .f32 0x00000000#32) = _
  rw [broadcastTo_1b_ab_apply, TileMatmul.matmul_zero_apply, Ideal.ofBits_zero_f32]
  simp only [shapeCast_self]
  unfold nodeAt
  congr 2
  refine Finset.sum_congr rfl fun h _ => ?_
  congr 1
  show max (matmul (F := Ideal) (plainDims w1) prec1 _ v4 (constant (F := Ideal) ⟨2, ![m, H]⟩ .f32 0x00000000#32) (ix2 p h)
      + broadcastTo ⟨2, ![m, H]⟩ v6 hb1 (ix2 p h)) (Ideal.ofBits .f32 0x00000000#32) = _
  rw [broadcastTo_1b_ab_apply, TileMatmul.matmul_zero_apply, Ideal.ofBits_zero_f32]
  rfl

/-- The same with the node features also passing through an identity reshape before the residual sum (how a body
    whose two summands have one shape is spelt). -/
theorem node_tile₂ {m : Nat} (w1 : DotDims.WF ⟨2, ![m, D]⟩ ⟨2, ![D, H]⟩ ⟨2, ![m, H]⟩ [1] [0] [0] [1] [] [])
    (w2 : DotDims.WF ⟨2, ![m, H]⟩ ⟨2, ![H, J]⟩ ⟨2, ![m, J]⟩ [1] [0] [0] [1] [] [])
    (prec1 prec2 : Option ContractPrecision)
    (hc0 hc : (⟨2, ![m, D]⟩ : Shape).ShapeCasts ⟨2, ![m, D]⟩)
    (hr1 : (⟨2, ![1, H]⟩ : Shape).ShapeCasts ⟨2, ![1, H]⟩) (hb1 : (⟨2, ![1, H]⟩ : Shape).Broadcasts ⟨2, ![m, H]⟩)
    (hr2 : (⟨2, ![1, J]⟩ : Shape).ShapeCasts ⟨2, ![1, J]⟩) (hb2 : (⟨2, ![1, J]⟩ : Shape).Broadcasts ⟨2, ![m, J]⟩)
    (v0 v1 : FVec Ideal ⟨2, ![m, D]⟩ .f32) (v4 : FVec Ideal ⟨2, ![D, H]⟩ .f32) (v6 : FVec Ideal ⟨2, ![1, H]⟩ .f32)
    (v12 : FVec Ideal ⟨2, ![H, J]⟩ .f32) (v14 : FVec Ideal ⟨2, ![1, J]⟩ .f32) (p : Fin m) (q : Fin J) :
    maximumf (F := Ideal) (addf (matmul (F := Ideal) (plainDims w2) prec2
          (maximumf (F := Ideal) (addf (matmul (F := Ideal) (plainDims w1) prec1
                (addf (shapeCast ⟨2, ![m, D]⟩ v0 hc0) (shapeCast ⟨2, ![m, D]⟩ v1 hc)) v4
                (constant (F := Ideal) ⟨2, ![m, H]⟩ .f32 0x00000000#32))
              (broadcastTo ⟨2, ![m, H]⟩ (shapeCast ⟨2, ![1, H]⟩ v6 hr1) hb1))
            (broadcast ⟨2, ![m, H]⟩ (Scalar.ofBits (F := Ideal) .f32 0x00000000#32)))
          v12 (constant (F := Ideal) ⟨2, ![m, J]⟩ .f32 0x00000000#32))
        (broadcastTo ⟨2, ![m, J]⟩ (shapeCast ⟨2, ![1, J]⟩ v14 hr2) hb2))
      (broadcast ⟨2, ![m, J]⟩ (Scalar.ofBits (F := Ideal) .f32 0x00000000#32)) (ix2 p q)
      = nodeAt v0 v1 v4 v6 v12 v14 p q := by
  rw [shapeCast_self v0 hc0]
  exact node_tile w1 w2 prec1 prec2 hc hr1 hb1 hr2 hb2 v0 v1 v4 v6 v12 v14 p q

end Node

end Cert.Stages

end
-- ==== Proof.Edge0.lean ====
/-
  The edge-message kernel of layer one as ONE function of the arrays it is launched on.

  The 800000 edges are cut into 50 tiles of 16000 rows. At tile t the body loads rows 16000·t … 16000·t + 15999 of the
  edge attributes ea [800000, 16] and of the gathered source rows xs [800000, 96], all of the weights We [16, 96] and
  of the bias row be [1, 96], and stores max ((xs + ea · We) + be, 0) over the tile. Row p of that product reads only
  row p of the tile, which is row 16000·t + p of the arrays; so the tile's result is rows 16000·t … of the one
  whole-array function `Stages.msg`, and the 50 tiles cover every row exactly once (row r is in tile r / 16000).
  Nothing is assumed about the arrays' contents: they may hold infinite entries.
-/
import proofs.«140540_j43258910605922_2_alg».proof.Proof.Gen.KernelIdeal.Frame
import proofs.«140540_j43258910605922_2_alg».proof.Proof.Stages
import Idealize.ShloMosaic.Lib.Pipeline.Value
import Idealize.ShloMosaic.Lib.ValueIdx

noncomputable section

namespace Cert.KernelIdeal.Edge0

open Idealize.ShloMosaic Idealize.ShloMosaic.TcCoe Idealize.SL.Sem Idealize.ShloMosaic.ValueIdx
open Cert.KernelIdeal Cert.KernelIdeal.Gen
open Idealize.ShloMosaic.Pipeline (Dat Cfg Window)

-- the arrays as the region finds them: any contents at all
variable (V : (c : Dev nD) → (b : Ref sig .tc) → Buf (Elt Ideal) ((c : Thread nD τ).loc b))

theorem hz : (![0, 0] : Fin 2 → Nat) = fun _ => 0 := funext fun a => by fin_cases a <;> rfl

/-- The body's one stored value, entry (p, q) of the tile, is the stage's formula over the tile's own blocks. -/
theorem pay (v0 : Vec Ideal S16000x16 .f32) (v1 : Vec Ideal S16x96 .f32) (v3 : Vec Ideal S16000x96 .f32)
    (v6 : Vec Ideal S1x96 .f32) (p : Fin 16000) (q : Fin 96) :
    k0_pay1 (F := Ideal) v0 v1 v3 v6 (ix2 p q) = Stages.msgAt v0 v3 v1 v6 p q := by
  unfold k0_pay1
  exact Stages.msg_tile dot_S16000x16_S16x96_S16000x96_1_0_0_1_n_n_wf (some .fp32) shapeCasts_S16000x96_S16000x96
    shapeCasts_S1x96_S1x96 broadcasts_S1x96_S16000x96 v0 v1 v3 v6 p q

/-- The block index maps over the grid: the row-tiled windows move with the point, the weights and biases stay. -/
theorem idx : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Block `t` of window 0 is rows `16000·t … 16000·t + 15999` of its array. -/
theorem blk0 (c : Dev nD) (t : Fin cfg0.N) (p : Fin 16000) (k : Fin 16) (r : Fin 800000)
    (hr : r.val = 16000 * t.val + p.val) :
    (iblk0 V c 0 t : Vec Ideal S16000x16 .f32) (ix2 p k) = (V c main_arg2 : S800000x16.Idx → EReal) (ix2 r k) := by
  obtain ⟨e00, e01, e10, e11, e20, e21, e30, e31, e40, e41⟩ := idx t
  unfold iblk0
  rw [View.read_apply]
  show V c main_arg2 _ = V c main_arg2 _
  congr 1
  funext a
  apply Fin.ext
  match a with
  | ⟨0, _⟩ => show win0_0.index t 0 * 16000 + 1 * p.val = r.val; rw [e00, hr]; omega
  | ⟨1, _⟩ => show win0_0.index t 1 * 16 + 1 * k.val = k.val; rw [e01]; omega

/-- Block `t` of window 1 is rows `16000·t … 16000·t + 15999` of its array. -/
theorem blk1 (c : Dev nD) (t : Fin cfg0.N) (p : Fin 16000) (k : Fin 96) (r : Fin 800000)
    (hr : r.val = 16000 * t.val + p.val) :
    (iblk0 V c 1 t : Vec Ideal S16000x96 .f32) (ix2 p k) = (V c main_v10 : S800000x96.Idx → EReal) (ix2 r k) := by
  obtain ⟨e00, e01, e10, e11, e20, e21, e30, e31, e40, e41⟩ := idx t
  unfold iblk0
  rw [View.read_apply]
  show V c main_v10 _ = V c main_v10 _
  congr 1
  funext a
  apply Fin.ext
  match a with
  | ⟨0, _⟩ => show win0_1.index t 0 * 16000 + 1 * p.val = r.val; rw [e10, hr]; omega
  | ⟨1, _⟩ => show win0_1.index t 1 * 96 + 1 * k.val = k.val; rw [e11]; omega

/-- Window 2's one block is its whole array, at every point. -/
theorem blk2 (c : Dev nD) (t : Fin cfg0.N) (p : Fin 16) (k : Fin 96) :
    (iblk0 V c 2 t : Vec Ideal S16x96 .f32) (ix2 p k) = (V c main_arg4 : S16x96.Idx → EReal) (ix2 p k) := by
  obtain ⟨e00, e01, e10, e11, e20, e21, e30, e31, e40, e41⟩ := idx t
  unfold iblk0
  rw [View.read_apply]
  show V c main_arg4 _ = V c main_arg4 _
  congr 1
  funext a
  apply Fin.ext
  match a with
  | ⟨0, _⟩ => show win0_2.index t 0 * 16 + 1 * p.val = p.val; rw [e20]; omega
  | ⟨1, _⟩ => show win0_2.index t 1 * 96 + 1 * k.val = k.val; rw [e21]; omega

/-- Window 3's one block is its whole array, at every point. -/
theorem blk3 (c : Dev nD) (t : Fin cfg0.N) (p : Fin 1) (k : Fin 96) :
    (iblk0 V c 3 t : Vec Ideal S1x96 .f32) (ix2 p k) = (V c main_v11 : S1x96.Idx → EReal) (ix2 p k) := by
  obtain ⟨e00, e01, e10, e11, e20, e21, e30, e31, e40, e41⟩ := idx t
  unfold iblk0
  rw [View.read_apply]
  show V c main_v11 _ = V c main_v11 _
  congr 1
  funext a
  apply Fin.ext
  match a with
  | ⟨0, _⟩ => show win0_3.index t 0 * 1 + 1 * p.val = p.val; rw [e30]; omega
  | ⟨1, _⟩ => show win0_3.index t 1 * 96 + 1 * k.val = k.val; rw [e31]; omega

/-- What point `t` writes back is block `t` of the stage's formula over the WHOLE arrays the region finds: row p of
    the tile is row `16000·t + p` of every row-tiled array, and the stage reads nothing else of them. -/
theorem flushed (c : Dev nD) (t : Fin cfg0.N) :
    (dat0 (F := Ideal) V c).flushed 4 t = ((cfg0.win 4).blk t).view.read (Elt Ideal)
      (Stages.msg (E := 800000) (K := 16) (D := 96) (V c main_arg2) (V c main_v10) (V c main_arg4) (V c main_v11)) := by
  show (cfg0.win 4).cut (grid0.coords t) ((dat0 V c).after 4 t) = _
  rw [after0_4]
  unfold out0_4
  rw [View.canon_unit_zero hz]
  simp only [View.ld_unit_zero (S := S16000x16) hz, View.ld_unit_zero (S := S16000x96) hz, View.ld_unit_zero (S := S16x96) hz, View.ld_unit_zero (S := S1x96) hz]
  obtain ⟨e00, e01, e10, e11, e20, e21, e30, e31, e40, e41⟩ := idx t
  have ht : t.val < 50 := by have h := t.isLt; have hN : cfg0.N = 50 := N_0; omega
  funext j
  obtain ⟨p, q, rfl⟩ : ∃ (p : Fin 16000) (q : Fin 96), j = (ix2 p q : S16000x96.Idx) := ⟨j 0, j 1, eq_ix2 j⟩
  have hp := p.isLt
  have hr : 16000 * t.val + p.val < 800000 := by omega
  have hemb : ((cfg0.win 4).blk t).view.emb (ix2 p q : S16000x96.Idx)
      = (ix2 (⟨16000 * t.val + p.val, hr⟩ : Fin 800000) q : S800000x96.Idx) := by
    funext a
    apply Fin.ext
    match a with
    | ⟨0, _⟩ => show win0_4.index t 0 * 16000 + 1 * p.val = 16000 * t.val + p.val; rw [e40]; omega
    | ⟨1, _⟩ => show win0_4.index t 1 * 96 + 1 * q.val = q.val; rw [e41]; omega
  show k0_pay1 (F := Ideal) (iblk0 V c 0 t) (iblk0 V c 2 t) (iblk0 V c 1 t) (iblk0 V c 3 t) (ix2 p q)
      = Stages.msg (E := 800000) (K := 16) (D := 96) (V c main_arg2) (V c main_v10) (V c main_arg4) (V c main_v11)
          (((cfg0.win 4).blk t).view.emb (ix2 p q : S16000x96.Idx))
  rw [hemb, pay, Stages.msg_apply]
  exact Stages.msgAt_congr _ _ _ _ _ _ _ _ p ⟨_, hr⟩ q (blk1 V c t p q ⟨_, hr⟩ rfl) (fun k => blk0 V c t p k ⟨_, hr⟩ rfl)
    (fun k => blk2 V c t k q) (blk3 V c t 0 q)

/-- An index of the output array is in point `t`'s block iff each coordinate is in the block's range. -/
theorem mem_blk (t : Fin cfg0.N) (i : S800000x96.Idx) :
    i ∈ ((cfg0.win 4).blk t).view.set ↔ ∀ a : Fin 2, win0_4.index t a * S16000x96.size a ≤ (i a).val
      ∧ (i a).val < win0_4.index t a * S16000x96.size a + S16000x96.size a := by
  show i ∈ ((View.whole main_v12).slice (win0_4.rect t)).set ↔ _
  rw [View.set_slice_whole, Rect.mem_set_unit]
  exact Iff.rfl

/-- The blocks tile the output array: row `r` is in the block of point `r / 16000`. -/
theorem cover (i : S800000x96.Idx) :
    ∃ t : Fin cfg0.N, (cfg0.win 4).flush t = true ∧ i ∈ ((cfg0.win 4).blk t).view.set := by
  have hi0 : (i 0).val < 800000 := (i 0).isLt
  have hi1 : (i 1).val < 96 := (i 1).isLt
  have hN : cfg0.N = 50 := N_0
  let t : Fin cfg0.N := ⟨(i 0).val / 16000, by rw [hN]; omega⟩
  obtain ⟨e00, e01, e10, e11, e20, e21, e30, e31, e40, e41⟩ := idx t
  refine ⟨t, flush0_4 t, ?_⟩
  rw [mem_blk]
  intro a
  match a with
  | ⟨0, _⟩ =>
    show win0_4.index t 0 * 16000 ≤ (i 0).val ∧ (i 0).val < win0_4.index t 0 * 16000 + 16000
    rw [e40]
    show (i 0).val / 16000 * 16000 ≤ (i 0).val ∧ (i 0).val < (i 0).val / 16000 * 16000 + 16000
    omega
  | ⟨1, _⟩ =>
    show win0_4.index t 1 * 96 ≤ (i 1).val ∧ (i 1).val < win0_4.index t 1 * 96 + 96
    rw [e41]; omega

/-- THE EDGE MESSAGES OF LAYER one: whatever the arrays hold when the region is entered, its output array ends holding, at
    edge e and feature d, max ((xs (e, d) + Σ_k ea (e, k) · We (k, d)) + be (d), 0) of them. -/
theorem value (c : Dev nD) :
    (dat0 (F := Ideal) V c).arrAt 4 cfg0.N
      = Stages.msg (E := 800000) (K := 16) (D := 96) (V c main_arg2) (V c main_v10) (V c main_arg4) (V c main_v11) :=
  (dat0 (F := Ideal) V c).arrAt_eq_of_cover 4 _ (fun t _ => flushed V c t) cover

end Cert.KernelIdeal.Edge0

end
-- ==== Proof.Edge2.lean ====
/-
  The edge-message kernel of layer two as ONE function of the arrays it is launched on.

  The 800000 edges are cut into 50 tiles of 16000 rows. At tile t the body loads rows 16000·t … 16000·t + 15999 of the
  edge attributes ea [800000, 16] and of the gathered source rows xs [800000, 128], all of the weights We [16, 128] and
  of the bias row be [1, 128], and stores max ((xs + ea · We) + be, 0) over the tile. Row p of that product reads only
  row p of the tile, which is row 16000·t + p of the arrays; so the tile's result is rows 16000·t … of the one
  whole-array function `Stages.msg`, and the 50 tiles cover every row exactly once (row r is in tile r / 16000).
  Nothing is assumed about the arrays' contents: they may hold infinite entries.
-/
import proofs.«140540_j43258910605922_2_alg».proof.Proof.Gen.KernelIdeal.Frame
import proofs.«140540_j43258910605922_2_alg».proof.Proof.Stages
import Idealize.ShloMosaic.Lib.Pipeline.Value
import Idealize.ShloMosaic.Lib.ValueIdx

noncomputable section

namespace Cert.KernelIdeal.Edge2

open Idealize.ShloMosaic Idealize.ShloMosaic.TcCoe Idealize.SL.Sem Idealize.ShloMosaic.ValueIdx
open Cert.KernelIdeal Cert.KernelIdeal.Gen
open Idealize.ShloMosaic.Pipeline (Dat Cfg Window)

-- the arrays as the region finds them: any contents at all
variable (V : (c : Dev nD) → (b : Ref sig .tc) → Buf (Elt Ideal) ((c : Thread nD τ).loc b))

theorem hz : (![0, 0] : Fin 2 → Nat) = fun _ => 0 := funext fun a => by fin_cases a <;> rfl

/-- The body's one stored value, entry (p, q) of the tile, is the stage's formula over the tile's own blocks. -/
theorem pay (v0 : Vec Ideal S16000x16 .f32) (v1 : Vec Ideal S16x128 .f32) (v3 : Vec Ideal S16000x128 .f32)
    (v6 : Vec Ideal S1x128 .f32) (p : Fin 16000) (q : Fin 128) :
    k2_pay1 (F := Ideal) v0 v1 v3 v6 (ix2 p q) = Stages.msgAt v0 v3 v1 v6 p q := by
  unfold k2_pay1
  exact Stages.msg_tile dot_S16000x16_S16x128_S16000x128_1_0_0_1_n_n_wf (some .fp32) shapeCasts_S16000x128_S16000x128
    shapeCasts_S1x128_S1x128 broadcasts_S1x128_S16000x128 v0 v1 v3 v6 p q

/-- The block index maps over the grid: the row-tiled windows move with the point, the weights and biases stay. -/
theorem idx : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Block `t` of window 0 is rows `16000·t … 16000·t + 15999` of its array. -/
theorem blk0 (c : Dev nD) (t : Fin cfg2.N) (p : Fin 16000) (k : Fin 16) (r : Fin 800000)
    (hr : r.val = 16000 * t.val + p.val) :
    (iblk2 V c 0 t : Vec Ideal S16000x16 .f32) (ix2 p k) = (V c main_arg2 : S800000x16.Idx → EReal) (ix2 r k) := by
  obtain ⟨e00, e01, e10, e11, e20, e21, e30, e31, e40, e41⟩ := idx t
  unfold iblk2
  rw [View.read_apply]
  show V c main_arg2 _ = V c main_arg2 _
  congr 1
  funext a
  apply Fin.ext
  match a with
  | ⟨0, _⟩ => show win2_0.index t 0 * 16000 + 1 * p.val = r.val; rw [e00, hr]; omega
  | ⟨1, _⟩ => show win2_0.index t 1 * 16 + 1 * k.val = k.val; rw [e01]; omega

/-- Block `t` of window 1 is rows `16000·t … 16000·t + 15999` of its array. -/
theorem blk1 (c : Dev nD) (t : Fin cfg2.N) (p : Fin 16000) (k : Fin 128) (r : Fin 800000)
    (hr : r.val = 16000 * t.val + p.val) :
    (iblk2 V c 1 t : Vec Ideal S16000x128 .f32) (ix2 p k) = (V c main_v25 : S800000x128.Idx → EReal) (ix2 r k) := by
  obtain ⟨e00, e01, e10, e11, e20, e21, e30, e31, e40, e41⟩ := idx t
  unfold iblk2
  rw [View.read_apply]
  show V c main_v25 _ = V c main_v25 _
  congr 1
  funext a
  apply Fin.ext
  match a with
  | ⟨0, _⟩ => show win2_1.index t 0 * 16000 + 1 * p.val = r.val; rw [e10, hr]; omega
  | ⟨1, _⟩ => show win2_1.index t 1 * 128 + 1 * k.val = k.val; rw [e11]; omega

/-- Window 2's one block is its whole array, at every point. -/
theorem blk2 (c : Dev nD) (t : Fin cfg2.N) (p : Fin 16) (k : Fin 128) :
    (iblk2 V c 2 t : Vec Ideal S16x128 .f32) (ix2 p k) = (V c main_arg10 : S16x128.Idx → EReal) (ix2 p k) := by
  obtain ⟨e00, e01, e10, e11, e20, e21, e30, e31, e40, e41⟩ := idx t
  unfold iblk2
  rw [View.read_apply]
  show V c main_arg10 _ = V c main_arg10 _
  congr 1
  funext a
  apply Fin.ext
  match a with
  | ⟨0, _⟩ => show win2_2.index t 0 * 16 + 1 * p.val = p.val; rw [e20]; omega
  | ⟨1, _⟩ => show win2_2.index t 1 * 128 + 1 * k.val = k.val; rw [e21]; omega

/-- Window 3's one block is its whole array, at every point. -/
theorem blk3 (c : Dev nD) (t : Fin cfg2.N) (p : Fin 1) (k : Fin 128) :
    (iblk2 V c 3 t : Vec Ideal S1x128 .f32) (ix2 p k) = (V c main_v26 : S1x128.Idx → EReal) (ix2 p k) := by
  obtain ⟨e00, e01, e10, e11, e20, e21, e30, e31, e40, e41⟩ := idx t
  unfold iblk2
  rw [View.read_apply]
  show V c main_v26 _ = V c main_v26 _
  congr 1
  funext a
  apply Fin.ext
  match a with
  | ⟨0, _⟩ => show win2_3.index t 0 * 1 + 1 * p.val = p.val; rw [e30]; omega
  | ⟨1, _⟩ => show win2_3.index t 1 * 128 + 1 * k.val = k.val; rw [e31]; omega

/-- What point `t` writes back is block `t` of the stage's formula over the WHOLE arrays the region finds: row p of
    the tile is row `16000·t + p` of every row-tiled array, and the stage reads nothing else of them. -/
theorem flushed (c : Dev nD) (t : Fin cfg2.N) :
    (dat2 (F := Ideal) V c).flushed 4 t = ((cfg2.win 4).blk t).view.read (Elt Ideal)
      (Stages.msg (E := 800000) (K := 16) (D := 128) (V c main_arg2) (V c main_v25) (V c main_arg10) (V c main_v26)) := by
  show (cfg2.win 4).cut (grid2.coords t) ((dat2 V c).after 4 t) = _
  rw [after2_4]
  unfold out2_4
  rw [View.canon_unit_zero hz]
  simp only [View.ld_unit_zero (S := S16000x16) hz, View.ld_unit_zero (S := S16000x128) hz, View.ld_unit_zero (S := S16x128) hz, View.ld_unit_zero (S := S1x128) hz]
  obtain ⟨e00, e01, e10, e11, e20, e21, e30, e31, e40, e41⟩ := idx t
  have ht : t.val < 50 := by have h := t.isLt; have hN : cfg2.N = 50 := N_2; omega
  funext j
  obtain ⟨p, q, rfl⟩ : ∃ (p : Fin 16000) (q : Fin 128), j = (ix2 p q : S16000x128.Idx) := ⟨j 0, j 1, eq_ix2 j⟩
  have hp := p.isLt
  have hr : 16000 * t.val + p.val < 800000 := by omega
  have hemb : ((cfg2.win 4).blk t).view.emb (ix2 p q : S16000x128.Idx)
      = (ix2 (⟨16000 * t.val + p.val, hr⟩ : Fin 800000) q : S800000x128.Idx) := by
    funext a
    apply Fin.ext
    match a with
    | ⟨0, _⟩ => show win2_4.index t 0 * 16000 + 1 * p.val = 16000 * t.val + p.val; rw [e40]; omega
    | ⟨1, _⟩ => show win2_4.index t 1 * 128 + 1 * q.val = q.val; rw [e41]; omega
  show k2_pay1 (F := Ideal) (iblk2 V c 0 t) (iblk2 V c 2 t) (iblk2 V c 1 t) (iblk2 V c 3 t) (ix2 p q)
      = Stages.msg (E := 800000) (K := 16) (D := 128) (V c main_arg2) (V c main_v25) (V c main_arg10) (V c main_v26)
          (((cfg2.win 4).blk t).view.emb (ix2 p q : S16000x128.Idx))
  rw [hemb, pay, Stages.msg_apply]
  exact Stages.msgAt_congr _ _ _ _ _ _ _ _ p ⟨_, hr⟩ q (blk1 V c t p q ⟨_, hr⟩ rfl) (fun k => blk0 V c t p k ⟨_, hr⟩ rfl)
    (fun k => blk2 V c t k q) (blk3 V c t 0 q)

/-- An index of the output array is in point `t`'s block iff each coordinate is in the block's range. -/
theorem mem_blk (t : Fin cfg2.N) (i : S800000x128.Idx) :
    i ∈ ((cfg2.win 4).blk t).view.set ↔ ∀ a : Fin 2, win2_4.index t a * S16000x128.size a ≤ (i a).val
      ∧ (i a).val < win2_4.index t a * S16000x128.size a + S16000x128.size a := by
  show i ∈ ((View.whole main_v27).slice (win2_4.rect t)).set ↔ _
  rw [View.set_slice_whole, Rect.mem_set_unit]
  exact Iff.rfl

/-- The blocks tile the output array: row `r` is in the block of point `r / 16000`. -/
theorem cover (i : S800000x128.Idx) :
    ∃ t : Fin cfg2.N, (cfg2.win 4).flush t = true ∧ i ∈ ((cfg2.win 4).blk t).view.set := by
  have hi0 : (i 0).val < 800000 := (i 0).isLt
  have hi1 : (i 1).val < 128 := (i 1).isLt
  have hN : cfg2.N = 50 := N_2
  let t : Fin cfg2.N := ⟨(i 0).val / 16000, by rw [hN]; omega⟩
  obtain ⟨e00, e01, e10, e11, e20, e21, e30, e31, e40, e41⟩ := idx t
  refine ⟨t, flush2_4 t, ?_⟩
  rw [mem_blk]
  intro a
  match a with
  | ⟨0, _⟩ =>
    show win2_4.index t 0 * 16000 ≤ (i 0).val ∧ (i 0).val < win2_4.index t 0 * 16000 + 16000
    rw [e40]
    show (i 0).val / 16000 * 16000 ≤ (i 0).val ∧ (i 0).val < (i 0).val / 16000 * 16000 + 16000
    omega
  | ⟨1, _⟩ =>
    show win2_4.index t 1 * 128 ≤ (i 1).val ∧ (i 1).val < win2_4.index t 1 * 128 + 128
    rw [e41]; omega

/-- THE EDGE MESSAGES OF LAYER two: whatever the arrays hold when the region is entered, its output array ends holding, at
    edge e and feature d, max ((xs (e, d) + Σ_k ea (e, k) · We (k, d)) + be (d), 0) of them. -/
theorem value (c : Dev nD) :
    (dat2 (F := Ideal) V c).arrAt 4 cfg2.N
      = Stages.msg (E := 800000) (K := 16) (D := 128) (V c main_arg2) (V c main_v25) (V c main_arg10) (V c main_v26) :=
  (dat2 (F := Ideal) V c).arrAt_eq_of_cover 4 _ (fun t _ => flushed V c t) cover

end Cert.KernelIdeal.Edge2

end
-- ==== Proof.Node1.lean ====
/-
  The node-update kernel of layer one as ONE function of the arrays it is launched on.

  The 50000 nodes are cut into 5 tiles of 10000 rows. At tile t the body loads rows 10000·t … 10000·t + 9999 of the
  node features x [50000, 96] and of the aggregated messages agg [50000, 96], all of both weight matrices and both bias
  rows, and stores max (max ((x + agg) · W1 + b1, 0) · W2 + b2, 0) over the tile. Row p of either product reads only
  row p of its left operand, hence only row 10000·t + p of x and agg; so the tile's result is rows 10000·t … of the one
  whole-array function `Stages.node`, and the 5 tiles cover every row exactly once (row r is in tile r / 10000).
  Nothing is assumed about the arrays' contents: they may hold infinite entries.
-/
import proofs.«140540_j43258910605922_2_alg».proof.Proof.Gen.KernelIdeal.Frame
import proofs.«140540_j43258910605922_2_alg».proof.Proof.Stages
import Idealize.ShloMosaic.Lib.Pipeline.Value
import Idealize.ShloMosaic.Lib.ValueIdx

noncomputable section

namespace Cert.KernelIdeal.Node1

open Idealize.ShloMosaic Idealize.ShloMosaic.TcCoe Idealize.SL.Sem Idealize.ShloMosaic.ValueIdx
open Cert.KernelIdeal Cert.KernelIdeal.Gen
open Idealize.ShloMosaic.Pipeline (Dat Cfg Window)

-- the arrays as the region finds them: any contents at all
variable (V : (c : Dev nD) → (b : Ref sig .tc) → Buf (Elt Ideal) ((c : Thread nD τ).loc b))

theorem hz : (![0, 0] : Fin 2 → Nat) = fun _ => 0 := funext fun a => by fin_cases a <;> rfl

/-- The body's one stored value, entry (p, q) of the tile, is the stage's formula over the tile's own blocks. -/
theorem pay (v0 v1 : Vec Ideal S10000x96 .f32) (v4 : Vec Ideal S96x128 .f32) (v6 : Vec Ideal S1x128 .f32)
    (v12 : Vec Ideal S128x128 .f32) (v14 : Vec Ideal S1x128 .f32) (p : Fin 10000) (q : Fin 128) :
    k1_pay1 (F := Ideal) v0 v1 v4 v6 v12 v14 (ix2 p q) = Stages.nodeAt v0 v1 v4 v6 v12 v14 p q := by
  unfold k1_pay1
  exact Stages.node_tile dot_S10000x96_S96x128_S10000x128_1_0_0_1_n_n_wf dot_S10000x128_S128x128_S10000x128_1_0_0_1_n_n_wf
    (some .fp32) (some .fp32) shapeCasts_S10000x96_S10000x96 shapeCasts_S1x128_S1x128 broadcasts_S1x128_S10000x128
    shapeCasts_S1x128_S1x128 broadcasts_S1x128_S10000x128 v0 v1 v4 v6 v12 v14 p q

/-- The block index maps over the grid: the row-tiled windows move with the point, the weights and biases stay. -/
theorem idx : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Block `t` of window 0 is rows `10000·t … 10000·t + 9999` of its array. -/
theorem blk0 (c : Dev nD) (t : Fin cfg1.N) (p : Fin 10000) (k : Fin 96) (r : Fin 50000)
    (hr : r.val = 10000 * t.val + p.val) :
    (iblk1 V c 0 t : Vec Ideal S10000x96 .f32) (ix2 p k) = (V c main_arg0 : S50000x96.Idx → EReal) (ix2 r k) := by
  obtain ⟨e00, e01, e10, e11, e20, e21, e30, e31, e40, e41, e50, e51, e60, e61⟩ := idx t
  unfold iblk1
  rw [View.read_apply]
  show V c main_arg0 _ = V c main_arg0 _
  congr 1
  funext a
  apply Fin.ext
  match a with
  | ⟨0, _⟩ => show win1_0.index t 0 * 10000 + 1 * p.val = r.val; rw [e00, hr]; omega
  | ⟨1, _⟩ => show win1_0.index t 1 * 96 + 1 * k.val = k.val; rw [e01]; omega

/-- Block `t` of window 1 is rows `10000·t … 10000·t + 9999` of its array. -/
theorem blk1 (c : Dev nD) (t : Fin cfg1.N) (p : Fin 10000) (k : Fin 96) (r : Fin 50000)
    (hr : r.val = 10000 * t.val + p.val) :
    (iblk1 V c 1 t : Vec Ideal S10000x96 .f32) (ix2 p k) = (V c main_v15 : S50000x96.Idx → EReal) (ix2 r k) := by
  obtain ⟨e00, e01, e10, e11, e20, e21, e30, e31, e40, e41, e50, e51, e60, e61⟩ := idx t
  unfold iblk1
  rw [View.read_apply]
  show V c main_v15 _ = V c main_v15 _
  congr 1
  funext a
  apply Fin.ext
  match a with
  | ⟨0, _⟩ => show win1_1.index t 0 * 10000 + 1 * p.val = r.val; rw [e10, hr]; omega
  | ⟨1, _⟩ => show win1_1.index t 1 * 96 + 1 * k.val = k.val; rw [e11]; omega

/-- Window 2's one block is its whole array, at every point. -/
theorem blk2 (c : Dev nD) (t : Fin cfg1.N) (p : Fin 96) (k : Fin 128) :
    (iblk1 V c 2 t : Vec Ideal S96x128 .f32) (ix2 p k) = (V c main_arg6 : S96x128.Idx → EReal) (ix2 p k) := by
  obtain ⟨e00, e01, e10, e11, e20, e21, e30, e31, e40, e41, e50, e51, e60, e61⟩ := idx t
  unfold iblk1
  rw [View.read_apply]
  show V c main_arg6 _ = V c main_arg6 _
  congr 1
  funext a
  apply Fin.ext
  match a with
  | ⟨0, _⟩ => show win1_2.index t 0 * 96 + 1 * p.val = p.val; rw [e20]; omega
  | ⟨1, _⟩ => show win1_2.index t 1 * 128 + 1 * k.val = k.val; rw [e21]; omega

/-- Window 3's one block is its whole array, at every point. -/
theorem blk3 (c : Dev nD) (t : Fin cfg1.N) (p : Fin 1) (k : Fin 128) :
    (iblk1 V c 3 t : Vec Ideal S1x128 .f32) (ix2 p k) = (V c main_v16 : S1x128.Idx → EReal) (ix2 p k) := by
  obtain ⟨e00, e01, e10, e11, e20, e21, e30, e31, e40, e41, e50, e51, e60, e61⟩ := idx t
  unfold iblk1
  rw [View.read_apply]
  show V c main_v16 _ = V c main_v16 _
  congr 1
  funext a
  apply Fin.ext
  match a with
  | ⟨0, _⟩ => show win1_3.index t 0 * 1 + 1 * p.val = p.val; rw [e30]; omega
  | ⟨1, _⟩ => show win1_3.index t 1 * 128 + 1 * k.val = k.val; rw [e31]; omega

/-- Window 4's one block is its whole array, at every point. -/
theorem blk4 (c : Dev nD) (t : Fin cfg1.N) (p : Fin 128) (k : Fin 128) :
    (iblk1 V c 4 t : Vec Ideal S128x128 .f32) (ix2 p k) = (V c main_arg8 : S128x128.Idx → EReal) (ix2 p k) := by
  obtain ⟨e00, e01, e10, e11, e20, e21, e30, e31, e40, e41, e50, e51, e60, e61⟩ := idx t
  unfold iblk1
  rw [View.read_apply]
  show V c main_arg8 _ = V c main_arg8 _
  congr 1
  funext a
  apply Fin.ext
  match a with
  | ⟨0, _⟩ => show win1_4.index t 0 * 128 + 1 * p.val = p.val; rw [e40]; omega
  | ⟨1, _⟩ => show win1_4.index t 1 * 128 + 1 * k.val = k.val; rw [e41]; omega

/-- Window 5's one block is its whole array, at every point. -/
theorem blk5 (c : Dev nD) (t : Fin cfg1.N) (p : Fin 1) (k : Fin 128) :
    (iblk1 V c 5 t : Vec Ideal S1x128 .f32) (ix2 p k) = (V c main_v17 : S1x128.Idx → EReal) (ix2 p k) := by
  obtain ⟨e00, e01, e10, e11, e20, e21, e30, e31, e40, e41, e50, e51, e60, e61⟩ := idx t
  unfold iblk1
  rw [View.read_apply]
  show V c main_v17 _ = V c main_v17 _
  congr 1
  funext a
  apply Fin.ext
  match a with
  | ⟨0, _⟩ => show win1_5.index t 0 * 1 + 1 * p.val = p.val; rw [e50]; omega
  | ⟨1, _⟩ => show win1_5.index t 1 * 128 + 1 * k.val = k.val; rw [e51]; omega

/-- What point `t` writes back is block `t` of the stage's formula over the WHOLE arrays the region finds: row p of
    the tile is row `10000·t + p` of every row-tiled array, and the stage reads nothing else of them. -/
theorem flushed (c : Dev nD) (t : Fin cfg1.N) :
    (dat1 (F := Ideal) V c).flushed 6 t = ((cfg1.win 6).blk t).view.read (Elt Ideal)
      (Stages.node (N := 50000) (D := 96) (H := 128) (J := 128) (V c main_arg0) (V c main_v15) (V c main_arg6) (V c main_v16) (V c main_arg8) (V c main_v17)) := by
  show (cfg1.win 6).cut (grid1.coords t) ((dat1 V c).after 6 t) = _
  rw [after1_6]
  unfold out1_6
  rw [View.canon_unit_zero hz]
  simp only [View.ld_unit_zero (S := S10000x96) hz, View.ld_unit_zero (S := S96x128) hz, View.ld_unit_zero (S := S1x128) hz, View.ld_unit_zero (S := S128x128) hz, View.ld_unit_zero (S := S10000x128) hz]
  obtain ⟨e00, e01, e10, e11, e20, e21, e30, e31, e40, e41, e50, e51, e60, e61⟩ := idx t
  have ht : t.val < 5 := by have h := t.isLt; have hN : cfg1.N = 5 := N_1; omega
  funext j
  obtain ⟨p, q, rfl⟩ : ∃ (p : Fin 10000) (q : Fin 128), j = (ix2 p q : S10000x128.Idx) := ⟨j 0, j 1, eq_ix2 j⟩
  have hp := p.isLt
  have hr : 10000 * t.val + p.val < 50000 := by omega
  have hemb : ((cfg1.win 6).blk t).view.emb (ix2 p q : S10000x128.Idx)
      = (ix2 (⟨10000 * t.val + p.val, hr⟩ : Fin 50000) q : S50000x128.Idx) := by
    funext a
    apply Fin.ext
    match a with
    | ⟨0, _⟩ => show win1_6.index t 0 * 10000 + 1 * p.val = 10000 * t.val + p.val; rw [e60]; omega
    | ⟨1, _⟩ => show win1_6.index t 1 * 128 + 1 * q.val = q.val; rw [e61]; omega
  show k1_pay1 (F := Ideal) (iblk1 V c 0 t) (iblk1 V c 1 t) (iblk1 V c 2 t) (iblk1 V c 3 t) (iblk1 V c 4 t) (iblk1 V c 5 t) (ix2 p q)
      = Stages.node (N := 50000) (D := 96) (H := 128) (J := 128) (V c main_arg0) (V c main_v15) (V c main_arg6) (V c main_v16) (V c main_arg8) (V c main_v17)
          (((cfg1.win 6).blk t).view.emb (ix2 p q : S10000x128.Idx))
  rw [hemb, pay, Stages.node_apply]
  exact Stages.nodeAt_congr _ _ _ _ _ _ _ _ _ _ _ _ p ⟨_, hr⟩ q (fun k => blk0 V c t p k ⟨_, hr⟩ rfl)
    (fun k => blk1 V c t p k ⟨_, hr⟩ rfl) (fun k h => blk2 V c t k h) (fun h => blk3 V c t 0 h) (fun h => blk4 V c t h q)
    (blk5 V c t 0 q)

/-- An index of the output array is in point `t`'s block iff each coordinate is in the block's range. -/
theorem mem_blk (t : Fin cfg1.N) (i : S50000x128.Idx) :
    i ∈ ((cfg1.win 6).blk t).view.set ↔ ∀ a : Fin 2, win1_6.index t a * S10000x128.size a ≤ (i a).val
      ∧ (i a).val < win1_6.index t a * S10000x128.size a + S10000x128.size a := by
  show i ∈ ((View.whole main_v18).slice (win1_6.rect t)).set ↔ _
  rw [View.set_slice_whole, Rect.mem_set_unit]
  exact Iff.rfl

/-- The blocks tile the output array: row `r` is in the block of point `r / 10000`. -/
theorem cover (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  have hN : cfg1.N = 5 := N_1
  let t : Fin cfg1.N := ⟨(i 0).val / 10000, by rw [hN]; omega⟩
  obtain ⟨e00, e01, e10, e11, e20, e21, e30, e31, e40, e41, e50, e51, e60, e61⟩ := idx t
  refine ⟨t, flush1_6 t, ?_⟩
  rw [mem_blk]
  intro a
  match a with
  | ⟨0, _⟩ =>
    show win1_6.index t 0 * 10000 ≤ (i 0).val ∧ (i 0).val < win1_6.index t 0 * 10000 + 10000
    rw [e60]
    show (i 0).val / 10000 * 10000 ≤ (i 0).val ∧ (i 0).val < (i 0).val / 10000 * 10000 + 10000
    omega
  | ⟨1, _⟩ =>
    show win1_6.index t 1 * 128 ≤ (i 1).val ∧ (i 1).val < win1_6.index t 1 * 128 + 128
    rw [e61]; omega

/-- THE NODE UPDATE OF LAYER one: whatever the arrays hold when the region is entered, its output array ends holding, at
    node n and feature j, max ((Σ_h hid (n, h) · W2 (h, j)) + b2 (j), 0) with hid (n, h) = max ((Σ_c (x (n, c) + agg (n, c)) · W1 (c, h)) + b1 (h), 0). -/
theorem value (c : Dev nD) :
    (dat1 (F := Ideal) V c).arrAt 6 cfg1.N
      = Stages.node (N := 50000) (D := 96) (H := 128) (J := 128) (V c main_arg0) (V c main_v15) (V c main_arg6) (V c main_v16) (V c main_arg8) (V c main_v17) :=
  (dat1 (F := Ideal) V c).arrAt_eq_of_cover 6 _ (fun t _ => flushed V c t) cover

end Cert.KernelIdeal.Node1

end
-- ==== Proof.Node3.lean ====
/-
  The node-update kernel of layer two as ONE function of the arrays it is launched on.

  The 50000 nodes are cut into 5 tiles of 10000 rows. At tile t the body loads rows 10000·t … 10000·t + 9999 of the
  node features x [50000, 128] and of the aggregated messages agg [50000, 128], all of both weight matrices and both bias
  rows, and stores max (max ((x + agg) · W1 + b1, 0) · W2 + b2, 0) over the tile. Row p of either product reads only
  row p of its left operand, hence only row 10000·t + p of x and agg; so the tile's result is rows 10000·t … of the one
  whole-array function `Stages.node`, and the 5 tiles cover every row exactly once (row r is in tile r / 10000).
  Nothing is assumed about the arrays' contents: they may hold infinite entries.
-/
import proofs.«140540_j43258910605922_2_alg».proof.Proof.Gen.KernelIdeal.Frame
import proofs.«140540_j43258910605922_2_alg».proof.Proof.Stages
import Idealize.ShloMosaic.Lib.Pipeline.Value
import Idealize.ShloMosaic.Lib.ValueIdx

noncomputable section

namespace Cert.KernelIdeal.Node3

open Idealize.ShloMosaic Idealize.ShloMosaic.TcCoe Idealize.SL.Sem Idealize.ShloMosaic.ValueIdx
open Cert.KernelIdeal Cert.KernelIdeal.Gen
open Idealize.ShloMosaic.Pipeline (Dat Cfg Window)

-- the arrays as the region finds them: any contents at all
variable (V : (c : Dev nD) → (b : Ref sig .tc) → Buf (Elt Ideal) ((c : Thread nD τ).loc b))

theorem hz : (![0, 0] : Fin 2 → Nat) = fun _ => 0 := funext fun a => by fin_cases a <;> rfl

/-- The body's one stored value, entry (p, q) of the tile, is the stage's formula over the tile's own blocks. -/
theorem pay (v0 v1 : Vec Ideal S10000x128 .f32) (v4 : Vec Ideal S128x128 .f32) (v6 : Vec Ideal S1x128 .f32)
    (v12 : Vec Ideal S128x128 .f32) (v14 : Vec Ideal S1x128 .f32) (p : Fin 10000) (q : Fin 128) :
    k3_pay1 (F := Ideal) v0 v1 v4 v6 v12 v14 (ix2 p q) = Stages.nodeAt v0 v1 v4 v6 v12 v14 p q := by
  unfold k3_pay1
  exact Stages.node_tile₂ dot_S10000x128_S128x128_S10000x128_1_0_0_1_n_n_wf dot_S10000x128_S128x128_S10000x128_1_0_0_1_n_n_wf
    (some .fp32) (some .fp32) shapeCasts_S10000x128_S10000x128 shapeCasts_S10000x128_S10000x128 shapeCasts_S1x128_S1x128
    broadcasts_S1x128_S10000x128 shapeCasts_S1x128_S1x128 broadcasts_S1x128_S10000x128 v0 v1 v4 v6 v12 v14 p q

/-- The block index maps over the grid: the row-tiled windows move with the point, the weights and biases stay. -/
theorem idx : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- Block `t` of window 0 is rows `10000·t … 10000·t + 9999` of its array. -/
theorem blk0 (c : Dev nD) (t : Fin cfg3.N) (p : Fin 10000) (k : Fin 128) (r : Fin 50000)
    (hr : r.val = 10000 * t.val + p.val) :
    (iblk3 V c 0 t : Vec Ideal S10000x128 .f32) (ix2 p k) = (V c main_v18 : S50000x128.Idx → EReal) (ix2 r k) := by
  obtain ⟨e00, e01, e10, e11, e20, e21, e30, e31, e40, e41, e50, e51, e60, e61⟩ := idx t
  unfold iblk3
  rw [View.read_apply]
  show V c main_v18 _ = V c main_v18 _
  congr 1
  funext a
  apply Fin.ext
  match a with
  | ⟨0, _⟩ => show win3_0.index t 0 * 10000 + 1 * p.val = r.val; rw [e00, hr]; omega
  | ⟨1, _⟩ => show win3_0.index t 1 * 128 + 1 * k.val = k.val; rw [e01]; omega

/-- Block `t` of window 1 is rows `10000·t … 10000·t + 9999` of its array. -/
theorem blk1 (c : Dev nD) (t : Fin cfg3.N) (p : Fin 10000) (k : Fin 128) (r : Fin 50000)
    (hr : r.val = 10000 * t.val + p.val) :
    (iblk3 V c 1 t : Vec Ideal S10000x128 .f32) (ix2 p k) = (V c main_v30 : S50000x128.Idx → EReal) (ix2 r k) := by
  obtain ⟨e00, e01, e10, e11, e20, e21, e30, e31, e40, e41, e50, e51, e60, e61⟩ := idx t
  unfold iblk3
  rw [View.read_apply]
  show V c main_v30 _ = V c main_v30 _
  congr 1
  funext a
  apply Fin.ext
  match a with
  | ⟨0, _⟩ => show win3_1.index t 0 * 10000 + 1 * p.val = r.val; rw [e10, hr]; omega
  | ⟨1, _⟩ => show win3_1.index t 1 * 128 + 1 * k.val = k.val; rw [e11]; omega

/-- Window 2's one block is its whole array, at every point. -/
theorem blk2 (c : Dev nD) (t : Fin cfg3.N) (p : Fin 128) (k : Fin 128) :
    (iblk3 V c 2 t : Vec Ideal S128x128 .f32) (ix2 p k) = (V c main_arg12 : S128x128.Idx → EReal) (ix2 p k) := by
  obtain ⟨e00, e01, e10, e11, e20, e21, e30, e31, e40, e41, e50, e51, e60, e61⟩ := idx t
  unfold iblk3
  rw [View.read_apply]
  show V c main_arg12 _ = V c main_arg12 _
  congr 1
  funext a
  apply Fin.ext
  match a with
  | ⟨0, _⟩ => show win3_2.index t 0 * 128 + 1 * p.val = p.val; rw [e20]; omega
  | ⟨1, _⟩ => show win3_2.index t 1 * 128 + 1 * k.val = k.val; rw [e21]; omega

/-- Window 3's one block is its whole array, at every point. -/
theorem blk3 (c : Dev nD) (t : Fin cfg3.N) (p : Fin 1) (k : Fin 128) :
    (iblk3 V c 3 t : Vec Ideal S1x128 .f32) (ix2 p k) = (V c main_v31 : S1x128.Idx → EReal) (ix2 p k) := by
  obtain ⟨e00, e01, e10, e11, e20, e21, e30, e31, e40, e41, e50, e51, e60, e61⟩ := idx t
  unfold iblk3
  rw [View.read_apply]
  show V c main_v31 _ = V c main_v31 _
  congr 1
  funext a
  apply Fin.ext
  match a with
  | ⟨0, _⟩ => show win3_3.index t 0 * 1 + 1 * p.val = p.val; rw [e30]; omega
  | ⟨1, _⟩ => show win3_3.index t 1 * 128 + 1 * k.val = k.val; rw [e31]; omega

/-- Window 4's one block is its whole array, at every point. -/
theorem blk4 (c : Dev nD) (t : Fin cfg3.N) (p : Fin 128) (k : Fin 128) :
    (iblk3 V c 4 t : Vec Ideal S128x128 .f32) (ix2 p k) = (V c main_arg14 : S128x128.Idx → EReal) (ix2 p k) := by
  obtain ⟨e00, e01, e10, e11, e20, e21, e30, e31, e40, e41, e50, e51, e60, e61⟩ := idx t
  unfold iblk3
  rw [View.read_apply]
  show V c main_arg14 _ = V c main_arg14 _
  congr 1
  funext a
  apply Fin.ext
  match a with
  | ⟨0, _⟩ => show win3_4.index t 0 * 128 + 1 * p.val = p.val; rw [e40]; omega
  | ⟨1, _⟩ => show win3_4.index t 1 * 128 + 1 * k.val = k.val; rw [e41]; omega

/-- Window 5's one block is its whole array, at every point. -/
theorem blk5 (c : Dev nD) (t : Fin cfg3.N) (p : Fin 1) (k : Fin 128) :
    (iblk3 V c 5 t : Vec Ideal S1x128 .f32) (ix2 p k) = (V c main_v32 : S1x128.Idx → EReal) (ix2 p k) := by
  obtain ⟨e00, e01, e10, e11, e20, e21, e30, e31, e40, e41, e50, e51, e60, e61⟩ := idx t
  unfold iblk3
  rw [View.read_apply]
  show V c main_v32 _ = V c main_v32 _
  congr 1
  funext a
  apply Fin.ext
  match a with
  | ⟨0, _⟩ => show win3_5.index t 0 * 1 + 1 * p.val = p.val; rw [e50]; omega
  | ⟨1, _⟩ => show win3_5.index t 1 * 128 + 1 * k.val = k.val; rw [e51]; omega

/-- What point `t` writes back is block `t` of the stage's formula over the WHOLE arrays the region finds: row p of
    the tile is row `10000·t + p` of every row-tiled array, and the stage reads nothing else of them. -/
theorem flushed (c : Dev nD) (t : Fin cfg3.N) :
    (dat3 (F := Ideal) V c).flushed 6 t = ((cfg3.win 6).blk t).view.read (Elt Ideal)
      (Stages.node (N := 50000) (D := 128) (H := 128) (J := 128) (V c main_v18) (V c main_v30) (V c main_arg12) (V c main_v31) (V c main_arg14) (V c main_v32)) := by
  show (cfg3.win 6).cut (grid3.coords t) ((dat3 V c).after 6 t) = _
  rw [after3_6]
  unfold out3_6
  rw [View.canon_unit_zero hz]
  simp only [View.ld_unit_zero (S := S10000x128) hz, View.ld_unit_zero (S := S128x128) hz, View.ld_unit_zero (S := S1x128) hz]
  obtain ⟨e00, e01, e10, e11, e20, e21, e30, e31, e40, e41, e50, e51, e60, e61⟩ := idx t
  have ht : t.val < 5 := by have h := t.isLt; have hN : cfg3.N = 5 := N_3; omega
  funext j
  obtain ⟨p, q, rfl⟩ : ∃ (p : Fin 10000) (q : Fin 128), j = (ix2 p q : S10000x128.Idx) := ⟨j 0, j 1, eq_ix2 j⟩
  have hp := p.isLt
  have hr : 10000 * t.val + p.val < 50000 := by omega
  have hemb : ((cfg3.win 6).blk t).view.emb (ix2 p q : S10000x128.Idx)
      = (ix2 (⟨10000 * t.val + p.val, hr⟩ : Fin 50000) q : S50000x128.Idx) := by
    funext a
    apply Fin.ext
    match a with
    | ⟨0, _⟩ => show win3_6.index t 0 * 10000 + 1 * p.val = 10000 * t.val + p.val; rw [e60]; omega
    | ⟨1, _⟩ => show win3_6.index t 1 * 128 + 1 * q.val = q.val; rw [e61]; omega
  show k3_pay1 (F := Ideal) (iblk3 V c 0 t) (iblk3 V c 1 t) (iblk3 V c 2 t) (iblk3 V c 3 t) (iblk3 V c 4 t) (iblk3 V c 5 t) (ix2 p q)
      = Stages.node (N := 50000) (D := 128) (H := 128) (J := 128) (V c main_v18) (V c main_v30) (V c main_arg12) (V c main_v31) (V c main_arg14) (V c main_v32)
          (((cfg3.win 6).blk t).view.emb (ix2 p q : S10000x128.Idx))
  rw [hemb, pay, Stages.node_apply]
  exact Stages.nodeAt_congr _ _ _ _ _ _ _ _ _ _ _ _ p ⟨_, hr⟩ q (fun k => blk0 V c t p k ⟨_, hr⟩ rfl)
    (fun k => blk1 V c t p k ⟨_, hr⟩ rfl) (fun k h => blk2 V c t k h) (fun h => blk3 V c t 0 h) (fun h => blk4 V c t h q)
    (blk5 V c t 0 q)

/-- An index of the output array is in point `t`'s block iff each coordinate is in the block's range. -/
theorem mem_blk (t : Fin cfg3.N) (i : S50000x128.Idx) :
    i ∈ ((cfg3.win 6).blk t).view.set ↔ ∀ a : Fin 2, win3_6.index t a * S10000x128.size a ≤ (i a).val
      ∧ (i a).val < win3_6.index t a * S10000x128.size a + S10000x128.size a := by
  show i ∈ ((View.whole main_v33).slice (win3_6.rect t)).set ↔ _
  rw [View.set_slice_whole, Rect.mem_set_unit]
  exact Iff.rfl

/-- The blocks tile the output array: row `r` is in the block of point `r / 10000`. -/
theorem cover (i : S50000x128.Idx) :
    ∃ t : Fin cfg3.N, (cfg3.win 6).flush t = true ∧ i ∈ ((cfg3.win 6).blk t).view.set := by
  have hi0 : (i 0).val < 50000 := (i 0).isLt
  have hi1 : (i 1).val < 128 := (i 1).isLt
  have hN : cfg3.N = 5 := N_3
  let t : Fin cfg3.N := ⟨(i 0).val / 10000, by rw [hN]; omega⟩
  obtain ⟨e00, e01, e10, e11, e20, e21, e30, e31, e40, e41, e50, e51, e60, e61⟩ := idx t
  refine ⟨t, flush3_6 t, ?_⟩
  rw [mem_blk]
  intro a
  match a with
  | ⟨0, _⟩ =>
    show win3_6.index t 0 * 10000 ≤ (i 0).val ∧ (i 0).val < win3_6.index t 0 * 10000 + 10000
    rw [e60]
    show (i 0).val / 10000 * 10000 ≤ (i 0).val ∧ (i 0).val < (i 0).val / 10000 * 10000 + 10000
    omega
  | ⟨1, _⟩ =>
    show win3_6.index t 1 * 128 ≤ (i 1).val ∧ (i 1).val < win3_6.index t 1 * 128 + 128
    rw [e61]; omega

/-- THE NODE UPDATE OF LAYER two: whatever the arrays hold when the region is entered, its output array ends holding, at
    node n and feature j, max ((Σ_h hid (n, h) · W2 (h, j)) + b2 (j), 0) with hid (n, h) = max ((Σ_c (x (n, c) + agg (n, c)) · W1 (c, h)) + b1 (h), 0). -/
theorem value (c : Dev nD) :
    (dat3 (F := Ideal) V c).arrAt 6 cfg3.N
      = Stages.node (N := 50000) (D := 128) (H := 128) (J := 128) (V c main_v18) (V c main_v30) (V c main_arg12) (V c main_v31) (V c main_arg14) (V c main_v32) :=
  (dat3 (F := Ideal) V c).arrAt_eq_of_cover 6 _ (fun t _ => flushed V c t) cover

end Cert.KernelIdeal.Node3

end
-- ==== Proof.Chain.lean ====
/-
  The kernel program's result as a function of its arguments: the host program's own last stage.

  Both programs are the same network. Around its four kernel launches the kernel program runs, operation for
  operation, the host operations the reference runs (the slices of the edge list, the wrap of negative source
  indices, the two gathers, the three scatter-adds, the final product with its bias). So the kernel program's
  buffers can be followed FORWARD through its nine segments, each shown equal to the reference's stage of the same
  name, as a function of the eighteen arguments:

    * a buffer a stretch of host operations writes is that operation of the buffers it reads, which by the earlier
      steps are the reference's stages, and the reference's next stage is that same operation of them;
    * a launch's output array is the stage function of the launch's input arrays (the four region modules): the edge
      message `Stages.msg`, which is how the host spells relu ((xs + ea · We) + be), and the node update
      `Stages.node`, which is how the host spells relu (relu ((1 · x + agg) · W1 + b1) · W2 + b2);
    * a buffer nothing writes in a segment is what it was before it.

  The last step gives the result buffer as the reference's final stage of the arguments. No hypothesis on the
  arguments is used anywhere: every equation holds for all extended reals.
-/
import proofs.«140540_j43258910605922_2_alg».proof.Proof.Gen.KernelIdeal.Frame
import proofs.«140540_j43258910605922_2_alg».proof.Proof.Gen.ReferenceIdeal.Read
import proofs.«140540_j43258910605922_2_alg».proof.Proof.KernelRun
import proofs.«140540_j43258910605922_2_alg».proof.Proof.Edge0
import proofs.«140540_j43258910605922_2_alg».proof.Proof.Edge2
import proofs.«140540_j43258910605922_2_alg».proof.Proof.Node1
import proofs.«140540_j43258910605922_2_alg».proof.Proof.Node3
import Idealize.ShloMosaic.Lib.StableHlo.Run

noncomputable section

namespace Cert.KernelIdeal.Chain

open Idealize.ShloMosaic Idealize.ShloMosaic.TcCoe Idealize.SL.Sem Idealize.ShloMosaic.StableHlo
open Cert.KernelIdeal Cert.KernelIdeal.Gen
open Cert.ReferenceIdeal.Read

/-! ## Each stretch of host operations, read from ANY contents -/

section Stretches
variable (W : Valuation τ sig (Elt Ideal))

/-- The gathered source rows of layer one. -/
theorem s0_v10 : StableHlo.after (hostOps0 (F := Ideal)) W (Proc.devRef .tc main_v10)
    = val_main_v10 (F := Ideal) (W (Proc.devRef .tc main_arg0)) (W (Proc.devRef .tc main_arg1)) := by
  dsimp only [hostOps0]
  after_results
  rfl

/-- The edges' source nodes. -/
theorem s0_v1 : StableHlo.after (hostOps0 (F := Ideal)) W (Proc.devRef .tc main_v1)
    = val_main_v1 (F := Ideal) (W (Proc.devRef .tc main_arg1)) := by
  dsimp only [hostOps0]
  after_results
  rfl

/-- The edges' target nodes. -/
theorem s0_v3 : StableHlo.after (hostOps0 (F := Ideal)) W (Proc.devRef .tc main_v3)
    = val_main_v3 (F := Ideal) (W (Proc.devRef .tc main_arg1)) := by
  dsimp only [hostOps0]
  after_results
  rfl

/-- The edge bias of layer one as a row. -/
theorem s0_v11 : StableHlo.after (hostOps0 (F := Ideal)) W (Proc.devRef .tc main_v11)
    = shapeCast S1x96 (W (Proc.devRef .tc main_arg5)) shapeCasts_S96_S1x96 := by
  dsimp only [hostOps0]
  after_results
  rfl

/-- The messages of layer one summed into their target nodes. -/
theorem s1_v15 (x1 : (⟨Cert.ReferenceIdeal.S2x800000, .i32⟩ : BufTy).Contents (Elt Ideal)) (M : (⟨Cert.ReferenceIdeal.S800000x96, .f32⟩ : BufTy).Contents (Elt Ideal))
    (h3 : W (Proc.devRef .tc main_v3) = val_main_v3 (F := Ideal) x1) (h12 : W (Proc.devRef .tc main_v12) = M) :
    StableHlo.after (hostOps1 (F := Ideal)) W (Proc.devRef .tc main_v15)
      = Host.scatterAdd (F := Ideal) (φ := .f32) Cert.ReferenceIdeal.scatter_S50000x96_S800000x1_S800000x96_1_0_0_1 (val_main_v17 (F := Ideal))
          (val_main_v18 (F := Ideal) x1) M := by
  dsimp only [hostOps1]
  after_results
  rw [h3, h12]
  rfl

theorem s1_v16 : StableHlo.after (hostOps1 (F := Ideal)) W (Proc.devRef .tc main_v16)
    = shapeCast S1x128 (W (Proc.devRef .tc main_arg7)) shapeCasts_S128_S1x128 := by
  dsimp only [hostOps1]
  after_results
  rfl

theorem s1_v17 : StableHlo.after (hostOps1 (F := Ideal)) W (Proc.devRef .tc main_v17)
    = shapeCast S1x128 (W (Proc.devRef .tc main_arg9)) shapeCasts_S128_S1x128 := by
  dsimp only [hostOps1]
  after_results
  rfl

/-- The gathered source rows of layer two. -/
theorem s2_v25 (x1 : (⟨Cert.ReferenceIdeal.S2x800000, .i32⟩ : BufTy).Contents (Elt Ideal)) (H : (⟨Cert.ReferenceIdeal.S50000x128, .f32⟩ : BufTy).Contents (Elt Ideal))
    (h1 : W (Proc.devRef .tc main_v1) = val_main_v1 (F := Ideal) x1) (h18 : W (Proc.devRef .tc main_v18) = H) :
    StableHlo.after (hostOps2 (F := Ideal)) W (Proc.devRef .tc main_v25)
      = Host.gather Cert.ReferenceIdeal.gather_S50000x128_S800000x1_S800000x128_1_0_n_n_0_1_1128 H (val_main_v38 (F := Ideal) x1) := by
  dsimp only [hostOps2]
  after_results
  rw [h1, h18]
  rfl

theorem s2_v26 : StableHlo.after (hostOps2 (F := Ideal)) W (Proc.devRef .tc main_v26)
    = shapeCast S1x128 (W (Proc.devRef .tc main_arg11)) shapeCasts_S128_S1x128 := by
  dsimp only [hostOps2]
  after_results
  rfl

/-- The messages of layer two summed into their target nodes. -/
theorem s3_v30 (x1 : (⟨Cert.ReferenceIdeal.S2x800000, .i32⟩ : BufTy).Contents (Elt Ideal)) (M : (⟨Cert.ReferenceIdeal.S800000x128, .f32⟩ : BufTy).Contents (Elt Ideal))
    (h3 : W (Proc.devRef .tc main_v3) = val_main_v3 (F := Ideal) x1) (h27 : W (Proc.devRef .tc main_v27) = M) :
    StableHlo.after (hostOps3 (F := Ideal)) W (Proc.devRef .tc main_v30)
      = Host.scatterAdd (F := Ideal) (φ := .f32) Cert.ReferenceIdeal.scatter_S50000x128_S800000x1_S800000x128_1_0_0_1 (val_main_v46 (F := Ideal))
          (val_main_v47 (F := Ideal) x1) M := by
  dsimp only [hostOps3]
  after_results
  rw [h3, h27]
  rfl

theorem s3_v31 : StableHlo.after (hostOps3 (F := Ideal)) W (Proc.devRef .tc main_v31)
    = shapeCast S1x128 (W (Proc.devRef .tc main_arg13)) shapeCasts_S128_S1x128 := by
  dsimp only [hostOps3]
  after_results
  rfl

theorem s3_v32 : StableHlo.after (hostOps3 (F := Ideal)) W (Proc.devRef .tc main_v32)
    = shapeCast S1x128 (W (Proc.devRef .tc main_arg15)) shapeCasts_S128_S1x128 := by
  dsimp only [hostOps3]
  after_results
  rfl

/-- The pooled node features through the last linear layer. -/
theorem s4_v40 (x3 : (⟨Cert.ReferenceIdeal.S50000, .i32⟩ : BufTy).Contents (Elt Ideal)) (x16 : (⟨Cert.ReferenceIdeal.S128x128, .f32⟩ : BufTy).Contents (Elt Ideal)) (x17 : (⟨Cert.ReferenceIdeal.S128, .f32⟩ : BufTy).Contents (Elt Ideal)) (H : (⟨Cert.ReferenceIdeal.S50000x128, .f32⟩ : BufTy).Contents (Elt Ideal))
    (h3 : W (Proc.devRef .tc main_arg3) = x3) (h16 : W (Proc.devRef .tc main_arg16) = x16) (h17 : W (Proc.devRef .tc main_arg17) = x17)
    (h33 : W (Proc.devRef .tc main_v33) = H) :
    StableHlo.after (hostOps4 (F := Ideal)) W (Proc.devRef .tc main_v40)
      = addf (F := Ideal) (Host.dotGeneral (F := Ideal) (φ₁ := .f32) (φ₂ := .f32) Cert.ReferenceIdeal.dot_S512x128_S128x128_S512x128_1_0_0_1_n_n none
          (Host.scatterAdd (F := Ideal) (φ := .f32) Cert.ReferenceIdeal.scatter_S512x128_S50000x1_S50000x128_1_0_0_1 (val_main_v62 (F := Ideal))
            (val_main_v63 (F := Ideal) x3) H) x16) (val_main_v67 (F := Ideal) x17) := by
  dsimp only [hostOps4]
  after_results
  rw [h3, h16, h17, h33]
  rfl

end Stretches

/-! ## The buffers a segment does not write -/

section Fold
variable (m : (ℓ : Loc nD τ sig) → Buf (Elt Ideal) ℓ) (ρ : Dev nD → PrngReg)

theorem arg2_at1 (c : Dev nD) : W1 m ρ c (Proc.devRef .tc main_arg2) = m ((c : Thread nD τ).loc main_arg2) :=
  calc W1 m ρ c (Proc.devRef .tc main_arg2)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem arg4_at1 (c : Dev nD) : W1 m ρ c (Proc.devRef .tc main_arg4) = m ((c : Thread nD τ).loc main_arg4) :=
  calc W1 m ρ c (Proc.devRef .tc main_arg4)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem arg7_at2 (c : Dev nD) : W2 m ρ c (Proc.devRef .tc main_arg7) = m ((c : Thread nD τ).loc main_arg7) :=
  calc W2 m ρ c (Proc.devRef .tc main_arg7)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem arg9_at2 (c : Dev nD) : W2 m ρ c (Proc.devRef .tc main_arg9) = m ((c : Thread nD τ).loc main_arg9) :=
  calc W2 m ρ c (Proc.devRef .tc main_arg9)
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

theorem arg0_at3 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem arg6_at3 (c : Dev nD) : W3 m ρ c (Proc.devRef .tc main_arg6) = m ((c : Thread nD τ).loc main_arg6) :=
  calc W3 m ρ c (Proc.devRef .tc main_arg6)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem arg8_at3 (c : Dev nD) : W3 m ρ c (Proc.devRef .tc main_arg8) = m ((c : Thread nD τ).loc main_arg8) :=
  calc W3 m ρ c (Proc.devRef .tc main_arg8)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

theorem arg11_at4 (c : Dev nD) : W4 m ρ c (Proc.devRef .tc main_arg11) = m ((c : Thread nD τ).loc main_arg11) :=
  calc W4 m ρ c (Proc.devRef .tc main_arg11)
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := rfl

theorem arg2_at5 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := (W2_arr m ρ c 0).trans (((dat0 (V1 m ρ) c).arrAt_in 0 rfl _).trans (A_eq0 (V1 m ρ) c 0))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem arg10_at5 (c : Dev nD) : W5 m ρ c (Proc.devRef .tc main_arg10) = m ((c : Thread nD τ).loc main_arg10) :=
  calc W5 m ρ c (Proc.devRef .tc main_arg10)
    _ = W4 m ρ c (Proc.devRef .tc main_arg10) := StableHlo.after_of_forall_not_mem (b := Proc.devRef .tc main_arg10) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

theorem arg13_at6 (c : Dev nD) : W6 m ρ c (Proc.devRef .tc main_arg13) = m ((c : Thread nD τ).loc main_arg13) :=
  calc W6 m ρ c (Proc.devRef .tc main_arg13)
    _ = W5 m ρ c (Proc.devRef .tc main_arg13) := W6_of_ne m ρ c main_arg13 (by decide)
    _ = W4 m ρ c (Proc.devRef .tc main_arg13) := StableHlo.after_of_forall_not_mem (b := Proc.devRef .tc main_arg13) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg13) := W4_of_ne m ρ c main_arg13 (by decide)
    _ = W2 m ρ c (Proc.devRef .tc main_arg13) := StableHlo.after_of_forall_not_mem (b := Proc.devRef .tc main_arg13) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg13) := W2_of_ne m ρ c main_arg13 (by decide)
    _ = W0 m ρ c (Proc.devRef .tc main_arg13) := StableHlo.after_of_forall_not_mem (b := Proc.devRef .tc main_arg13) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg13) := rfl

theorem arg15_at6 (c : Dev nD) : W6 m ρ c (Proc.devRef .tc main_arg15) = m ((c : Thread nD τ).loc main_arg15) :=
  calc W6 m ρ c (Proc.devRef .tc main_arg15)
    _ = W5 m ρ c (Proc.devRef .tc main_arg15) := W6_of_ne m ρ c main_arg15 (by decide)
    _ = W4 m ρ c (Proc.devRef .tc main_arg15) := StableHlo.after_of_forall_not_mem (b := Proc.devRef .tc main_arg15) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg15) := W4_of_ne m ρ c main_arg15 (by decide)
    _ = W2 m ρ c (Proc.devRef .tc main_arg15) := StableHlo.after_of_forall_not_mem (b := Proc.devRef .tc main_arg15) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg15) := W2_of_ne m ρ c main_arg15 (by decide)
    _ = W0 m ρ c (Proc.devRef .tc main_arg15) := StableHlo.after_of_forall_not_mem (b := Proc.devRef .tc main_arg15) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg15) := rfl

theorem arg12_at7 (c : Dev nD) : W7 m ρ c (Proc.devRef .tc main_arg12) = m ((c : Thread nD τ).loc main_arg12) :=
  calc W7 m ρ c (Proc.devRef .tc main_arg12)
    _ = W6 m ρ c (Proc.devRef .tc main_arg12) := StableHlo.after_of_forall_not_mem (b := Proc.devRef .tc main_arg12) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg12) := W6_of_ne m ρ c main_arg12 (by decide)
    _ = W4 m ρ c (Proc.devRef .tc main_arg12) := StableHlo.after_of_forall_not_mem (b := Proc.devRef .tc main_arg12) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg12) := W4_of_ne m ρ c main_arg12 (by decide)
    _ = W2 m ρ c (Proc.devRef .tc main_arg12) := StableHlo.after_of_forall_not_mem (b := Proc.devRef .tc main_arg12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := rfl

theorem arg14_at7 (c : Dev nD) : W7 m ρ c (Proc.devRef .tc main_arg14) = m ((c : Thread nD τ).loc main_arg14) :=
  calc W7 m ρ c (Proc.devRef .tc main_arg14)
    _ = W6 m ρ c (Proc.devRef .tc main_arg14) := StableHlo.after_of_forall_not_mem (b := Proc.devRef .tc main_arg14) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg14) := W6_of_ne m ρ c main_arg14 (by decide)
    _ = W4 m ρ c (Proc.devRef .tc main_arg14) := StableHlo.after_of_forall_not_mem (b := Proc.devRef .tc main_arg14) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg14) := W4_of_ne m ρ c main_arg14 (by decide)
    _ = W2 m ρ c (Proc.devRef .tc main_arg14) := StableHlo.after_of_forall_not_mem (b := Proc.devRef .tc main_arg14) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg14) := W2_of_ne m ρ c main_arg14 (by decide)
    _ = W0 m ρ c (Proc.devRef .tc main_arg14) := StableHlo.after_of_forall_not_mem (b := Proc.devRef .tc main_arg14) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg14) := rfl

theorem arg3_at8 (c : Dev nD) : W8 m ρ c (Proc.devRef .tc main_arg3) = m ((c : Thread nD τ).loc main_arg3) :=
  calc W8 m ρ c (Proc.devRef .tc main_arg3)
    _ = W7 m ρ c (Proc.devRef .tc main_arg3) := W8_of_ne m ρ c main_arg3 (by decide)
    _ = W6 m ρ c (Proc.devRef .tc main_arg3) := StableHlo.after_of_forall_not_mem (b := Proc.devRef .tc main_arg3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg3) := W6_of_ne m ρ c main_arg3 (by decide)
    _ = W4 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem arg16_at8 (c : Dev nD) : W8 m ρ c (Proc.devRef .tc main_arg16) = m ((c : Thread nD τ).loc main_arg16) :=
  calc W8 m ρ c (Proc.devRef .tc main_arg16)
    _ = W7 m ρ c (Proc.devRef .tc main_arg16) := W8_of_ne m ρ c main_arg16 (by decide)
    _ = W6 m ρ c (Proc.devRef .tc main_arg16) := StableHlo.after_of_forall_not_mem (b := Proc.devRef .tc main_arg16) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg16) := W6_of_ne m ρ c main_arg16 (by decide)
    _ = W4 m ρ c (Proc.devRef .tc main_arg16) := StableHlo.after_of_forall_not_mem (b := Proc.devRef .tc main_arg16) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg16) := W4_of_ne m ρ c main_arg16 (by decide)
    _ = W2 m ρ c (Proc.devRef .tc main_arg16) := StableHlo.after_of_forall_not_mem (b := Proc.devRef .tc main_arg16) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg16) := W2_of_ne m ρ c main_arg16 (by decide)
    _ = W0 m ρ c (Proc.devRef .tc main_arg16) := StableHlo.after_of_forall_not_mem (b := Proc.devRef .tc main_arg16) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg16) := rfl

theorem arg17_at8 (c : Dev nD) : W8 m ρ c (Proc.devRef .tc main_arg17) = m ((c : Thread nD τ).loc main_arg17) :=
  calc W8 m ρ c (Proc.devRef .tc main_arg17)
    _ = W7 m ρ c (Proc.devRef .tc main_arg17) := W8_of_ne m ρ c main_arg17 (by decide)
    _ = W6 m ρ c (Proc.devRef .tc main_arg17) := StableHlo.after_of_forall_not_mem (b := Proc.devRef .tc main_arg17) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg17) := W6_of_ne m ρ c main_arg17 (by decide)
    _ = W4 m ρ c (Proc.devRef .tc main_arg17) := StableHlo.after_of_forall_not_mem (b := Proc.devRef .tc main_arg17) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg17) := W4_of_ne m ρ c main_arg17 (by decide)
    _ = W2 m ρ c (Proc.devRef .tc main_arg17) := StableHlo.after_of_forall_not_mem (b := Proc.devRef .tc main_arg17) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg17) := W2_of_ne m ρ c main_arg17 (by decide)
    _ = W0 m ρ c (Proc.devRef .tc main_arg17) := StableHlo.after_of_forall_not_mem (b := Proc.devRef .tc main_arg17) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg17) := rfl

theorem v3_at2 (c : Dev nD) : W2 m ρ c (Proc.devRef .tc main_v3) = val_main_v3 (F := Ideal) (m ((c : Thread nD τ).loc main_arg1)) :=
  calc W2 m ρ c (Proc.devRef .tc main_v3)
    _ = W1 m ρ c (Proc.devRef .tc main_v3) := W2_of_ne m ρ c main_v3 (by decide)
    _ = val_main_v3 (F := Ideal) (m ((c : Thread nD τ).loc main_arg1)) := s0_v3 (W0 m ρ c)

theorem v3_at6 (c : Dev nD) : W6 m ρ c (Proc.devRef .tc main_v3) = val_main_v3 (F := Ideal) (m ((c : Thread nD τ).loc main_arg1)) :=
  calc W6 m ρ c (Proc.devRef .tc main_v3)
    _ = W5 m ρ c (Proc.devRef .tc main_v3) := W6_of_ne m ρ c main_v3 (by decide)
    _ = W4 m ρ c (Proc.devRef .tc main_v3) := StableHlo.after_of_forall_not_mem (b := Proc.devRef .tc main_v3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v3) := W4_of_ne m ρ c main_v3 (by decide)
    _ = W2 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := W2_of_ne m ρ c main_v3 (by decide)
    _ = val_main_v3 (F := Ideal) (m ((c : Thread nD τ).loc main_arg1)) := s0_v3 (W0 m ρ c)

theorem v1_at4 (c : Dev nD) : W4 m ρ c (Proc.devRef .tc main_v1) = val_main_v1 (F := Ideal) (m ((c : Thread nD τ).loc main_arg1)) :=
  calc W4 m ρ c (Proc.devRef .tc main_v1)
    _ = W3 m ρ c (Proc.devRef .tc main_v1) := W4_of_ne m ρ c main_v1 (by decide)
    _ = W2 m ρ c (Proc.devRef .tc main_v1) := StableHlo.after_of_forall_not_mem (b := Proc.devRef .tc main_v1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v1) := W2_of_ne m ρ c main_v1 (by decide)
    _ = val_main_v1 (F := Ideal) (m ((c : Thread nD τ).loc main_arg1)) := s0_v1 (W0 m ρ c)

/-! ## The nine boundaries, forward -/

theorem v10_at1 (c : Dev nD) : W1 m ρ c (Proc.devRef .tc main_v10) = val_main_v10 (F := Ideal) (m ((c : Thread nD τ).loc main_arg0)) (m ((c : Thread nD τ).loc main_arg1)) := s0_v10 (W0 m ρ c)

theorem v11_at1 (c : Dev nD) : W1 m ρ c (Proc.devRef .tc main_v11) = shapeCast S1x96 (m ((c : Thread nD τ).loc main_arg5)) shapeCasts_S96_S1x96 := s0_v11 (W0 m ρ c)

/-- Layer one's messages. -/
theorem v12_at2 (c : Dev nD) : W2 m ρ c (Proc.devRef .tc main_v12) = val_main_v16 (F := Ideal) (m ((c : Thread nD τ).loc main_arg0)) (m ((c : Thread nD τ).loc main_arg1)) (m ((c : Thread nD τ).loc main_arg2)) (m ((c : Thread nD τ).loc main_arg4)) (m ((c : Thread nD τ).loc main_arg5)) := by
  refine (W2_arr m ρ c 4).trans ((Edge0.value (V1 m ρ) c).trans ?_)
  show Stages.msg (E := 800000) (K := 16) (D := 96) (W1 m ρ c (Proc.devRef .tc main_arg2)) (W1 m ρ c (Proc.devRef .tc main_v10))
      (W1 m ρ c (Proc.devRef .tc main_arg4)) (W1 m ρ c (Proc.devRef .tc main_v11)) = _
  rw [arg2_at1 m ρ c, v10_at1 m ρ c, arg4_at1 m ρ c, v11_at1 m ρ c]
  exact (Stages.msg_host Cert.ReferenceIdeal.Facts₀.dot_S800000x16_S16x96_S800000x96_1_0_0_1_n_n_wf none Cert.ReferenceIdeal.Facts₀.bcast_S96_S1x96_1
    Cert.ReferenceIdeal.Facts₀.bcast_S1x96_S800000x96_0_1 Cert.ReferenceIdeal.Facts₀.bcast_S_S800000x96 shapeCasts_S96_S1x96 (m ((c : Thread nD τ).loc main_arg2))
    (val_main_v10 (F := Ideal) (m ((c : Thread nD τ).loc main_arg0)) (m ((c : Thread nD τ).loc main_arg1))) (m ((c : Thread nD τ).loc main_arg4)) (m ((c : Thread nD τ).loc main_arg5))).symm

/-- Layer one's aggregated messages. -/
theorem v15_at3 (c : Dev nD) : W3 m ρ c (Proc.devRef .tc main_v15) = val_main_v19 (F := Ideal) (m ((c : Thread nD τ).loc main_arg0)) (m ((c : Thread nD τ).loc main_arg1)) (m ((c : Thread nD τ).loc main_arg2)) (m ((c : Thread nD τ).loc main_arg4)) (m ((c : Thread nD τ).loc main_arg5)) :=
  s1_v15 (W2 m ρ c) (m ((c : Thread nD τ).loc main_arg1)) _ (v3_at2 m ρ c) (v12_at2 m ρ c)

theorem v16_at3 (c : Dev nD) : W3 m ρ c (Proc.devRef .tc main_v16) = shapeCast S1x128 (m ((c : Thread nD τ).loc main_arg7)) shapeCasts_S128_S1x128 :=
  (s1_v16 (W2 m ρ c)).trans (by rw [arg7_at2 m ρ c])

theorem v17_at3 (c : Dev nD) : W3 m ρ c (Proc.devRef .tc main_v17) = shapeCast S1x128 (m ((c : Thread nD τ).loc main_arg9)) shapeCasts_S128_S1x128 :=
  (s1_v17 (W2 m ρ c)).trans (by rw [arg9_at2 m ρ c])

/-- Layer one's node features. -/
theorem v18_at4 (c : Dev nD) : W4 m ρ c (Proc.devRef .tc main_v18) = val_main_v32 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W4_arr m ρ c 6).trans ((Node1.value (V3 m ρ) c).trans ?_)
  show Stages.node (N := 50000) (D := 96) (H := 128) (J := 128) (W3 m ρ c (Proc.devRef .tc main_arg0)) (W3 m ρ c (Proc.devRef .tc main_v15))
      (W3 m ρ c (Proc.devRef .tc main_arg6)) (W3 m ρ c (Proc.devRef .tc main_v16)) (W3 m ρ c (Proc.devRef .tc main_arg8)) (W3 m ρ c (Proc.devRef .tc main_v17)) = _
  rw [arg0_at3 m ρ c, v15_at3 m ρ c, arg6_at3 m ρ c, v16_at3 m ρ c, arg8_at3 m ρ c, v17_at3 m ρ c]
  exact (Stages.node_host Cert.ReferenceIdeal.Facts₀.dot_S50000x96_S96x128_S50000x128_1_0_0_1_n_n_wf
    Cert.ReferenceIdeal.Facts₀.dot_S50000x128_S128x128_S50000x128_1_0_0_1_n_n_wf none none Cert.ReferenceIdeal.Facts₀.bcast_S_S50000x96
    Cert.ReferenceIdeal.Facts₀.bcast_S128_S1x128_1 Cert.ReferenceIdeal.Facts₀.bcast_S1x128_S50000x128_0_1 Cert.ReferenceIdeal.Facts₀.bcast_S_S50000x128
    Cert.ReferenceIdeal.Facts₀.bcast_S128_S1x128_1 Cert.ReferenceIdeal.Facts₀.bcast_S1x128_S50000x128_0_1 Cert.ReferenceIdeal.Facts₀.bcast_S_S50000x128
    shapeCasts_S128_S1x128 shapeCasts_S128_S1x128 (m ((c : Thread nD τ).loc main_arg0)) (val_main_v19 (F := Ideal) (m ((c : Thread nD τ).loc main_arg0)) (m ((c : Thread nD τ).loc main_arg1)) (m ((c : Thread nD τ).loc main_arg2)) (m ((c : Thread nD τ).loc main_arg4)) (m ((c : Thread nD τ).loc main_arg5))) (m ((c : Thread nD τ).loc main_arg6)) (m ((c : Thread nD τ).loc main_arg7))
    (m ((c : Thread nD τ).loc main_arg8)) (m ((c : Thread nD τ).loc main_arg9))).symm

theorem v18_at7 (c : Dev nD) : W7 m ρ c (Proc.devRef .tc main_v18) = val_main_v32 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  calc W7 m ρ c (Proc.devRef .tc main_v18)
    _ = W6 m ρ c (Proc.devRef .tc main_v18) := StableHlo.after_of_forall_not_mem (b := Proc.devRef .tc main_v18) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v18) := W6_of_ne m ρ c main_v18 (by decide)
    _ = W4 m ρ c (Proc.devRef .tc main_v18) := StableHlo.after_of_forall_not_mem (b := Proc.devRef .tc main_v18) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = val_main_v32 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := v18_at4 m ρ c

/-- Layer two's gathered source rows. -/
theorem v25_at5 (c : Dev nD) : W5 m ρ c (Proc.devRef .tc main_v25) = val_main_v39 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  s2_v25 (W4 m ρ c) (m ((c : Thread nD τ).loc main_arg1)) _ (v1_at4 m ρ c) (v18_at4 m ρ c)

theorem v26_at5 (c : Dev nD) : W5 m ρ c (Proc.devRef .tc main_v26) = shapeCast S1x128 (m ((c : Thread nD τ).loc main_arg11)) shapeCasts_S128_S1x128 :=
  (s2_v26 (W4 m ρ c)).trans (by rw [arg11_at4 m ρ c])

/-- Layer two's messages. -/
theorem v27_at6 (c : Dev nD) : W6 m ρ c (Proc.devRef .tc main_v27) = val_main_v45 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W6_arr m ρ c 4).trans ((Edge2.value (V5 m ρ) c).trans ?_)
  show Stages.msg (E := 800000) (K := 16) (D := 128) (W5 m ρ c (Proc.devRef .tc main_arg2)) (W5 m ρ c (Proc.devRef .tc main_v25))
      (W5 m ρ c (Proc.devRef .tc main_arg10)) (W5 m ρ c (Proc.devRef .tc main_v26)) = _
  rw [arg2_at5 m ρ c, v25_at5 m ρ c, arg10_at5 m ρ c, v26_at5 m ρ c]
  exact (Stages.msg_host Cert.ReferenceIdeal.Facts₀.dot_S800000x16_S16x128_S800000x128_1_0_0_1_n_n_wf none Cert.ReferenceIdeal.Facts₀.bcast_S128_S1x128_1
    Cert.ReferenceIdeal.Facts₀.bcast_S1x128_S800000x128_0_1 Cert.ReferenceIdeal.Facts₀.bcast_S_S800000x128 shapeCasts_S128_S1x128 (m ((c : Thread nD τ).loc main_arg2))
    (val_main_v39 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg10)) (m ((c : Thread nD τ).loc main_arg11))).symm

/-- Layer two's aggregated messages. -/
theorem v30_at7 (c : Dev nD) : W7 m ρ c (Proc.devRef .tc main_v30) = val_main_v48 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  s3_v30 (W6 m ρ c) (m ((c : Thread nD τ).loc main_arg1)) _ (v3_at6 m ρ c) (v27_at6 m ρ c)

theorem v31_at7 (c : Dev nD) : W7 m ρ c (Proc.devRef .tc main_v31) = shapeCast S1x128 (m ((c : Thread nD τ).loc main_arg13)) shapeCasts_S128_S1x128 :=
  (s3_v31 (W6 m ρ c)).trans (by rw [arg13_at6 m ρ c])

theorem v32_at7 (c : Dev nD) : W7 m ρ c (Proc.devRef .tc main_v32) = shapeCast S1x128 (m ((c : Thread nD τ).loc main_arg15)) shapeCasts_S128_S1x128 :=
  (s3_v32 (W6 m ρ c)).trans (by rw [arg15_at6 m ρ c])

/-- Layer two's node features. -/
theorem v33_at8 (c : Dev nD) : W8 m ρ c (Proc.devRef .tc main_v33) = val_main_v61 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  refine (W8_arr m ρ c 6).trans ((Node3.value (V7 m ρ) c).trans ?_)
  show Stages.node (N := 50000) (D := 128) (H := 128) (J := 128) (W7 m ρ c (Proc.devRef .tc main_v18)) (W7 m ρ c (Proc.devRef .tc main_v30))
      (W7 m ρ c (Proc.devRef .tc main_arg12)) (W7 m ρ c (Proc.devRef .tc main_v31)) (W7 m ρ c (Proc.devRef .tc main_arg14)) (W7 m ρ c (Proc.devRef .tc main_v32)) = _
  rw [v18_at7 m ρ c, v30_at7 m ρ c, arg12_at7 m ρ c, v31_at7 m ρ c, arg14_at7 m ρ c, v32_at7 m ρ c]
  exact (Stages.node_host Cert.ReferenceIdeal.Facts₀.dot_S50000x128_S128x128_S50000x128_1_0_0_1_n_n_wf
    Cert.ReferenceIdeal.Facts₀.dot_S50000x128_S128x128_S50000x128_1_0_0_1_n_n_wf none none Cert.ReferenceIdeal.Facts₀.bcast_S_S50000x128
    Cert.ReferenceIdeal.Facts₀.bcast_S128_S1x128_1 Cert.ReferenceIdeal.Facts₀.bcast_S1x128_S50000x128_0_1 Cert.ReferenceIdeal.Facts₀.bcast_S_S50000x128
    Cert.ReferenceIdeal.Facts₀.bcast_S128_S1x128_1 Cert.ReferenceIdeal.Facts₀.bcast_S1x128_S50000x128_0_1 Cert.ReferenceIdeal.Facts₀.bcast_S_S50000x128
    shapeCasts_S128_S1x128 shapeCasts_S128_S1x128 (val_main_v32 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (val_main_v48 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (m ((c : Thread nD τ).loc main_arg12)) (m ((c : Thread nD τ).loc main_arg13))
    (m ((c : Thread nD τ).loc main_arg14)) (m ((c : Thread nD τ).loc main_arg15))).symm

/-- THE RESULT: the reference's last stage of the arguments. -/
theorem v40_at9 (c : Dev nD) : W9 m ρ c (Proc.devRef .tc main_v40) = val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) :=
  s4_v40 (W8 m ρ c) (m ((c : Thread nD τ).loc main_arg3)) (m ((c : Thread nD τ).loc main_arg16)) (m ((c : Thread nD τ).loc main_arg17)) _ (arg3_at8 m ρ c) (arg16_at8 m ρ c) (arg17_at8 m ρ c) (v33_at8 m ρ c)

/-- The kernel program at the ideal values: every weakly fair execution terminates, nothing faulting, with the result
    buffer at the reference's last stage of the argument arrays, and the argument arrays as launched. -/
theorem kernel_run : θ_run (defs (F := Ideal)) (onTc (τ := τ) (main (F := Ideal))) ⟨m, fun _ => 0, ρ⟩ (fun r => ∀ c : Dev nD,
      r.2.mem ((c.tc : Thread nD τ).loc main_v40) = val_main_v68 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => ⟨(h c).1.trans (v40_at9 m ρ c), (h c).2⟩) (Named.run_named m ρ)

end Fold

end Cert.KernelIdeal.Chain

end
-- ==== Proof.lean ====
/-
  A two-layer graph network with edge features, as a tiled accelerator program and as a plain array program: the two
  compute the same [512, 128] result on the extended reals.

  The network. x [50000, 96] are node features, the edge list names a source and a target node for each of 800000
  edges, ea [800000, 16] are edge features. One layer computes, per edge, the message
      relu (x[source] + ea · We + be),
  sums the messages into their target nodes (agg), and updates every node by
      relu (relu ((x + agg) · W1 + b1) · W2 + b2);
  two such layers, then the node features are summed per graph and passed through one more linear map.

  The tiled program computes the per-edge message and the per-node update in kernels over row tiles (50 tiles of 16000
  edges, 5 tiles of 10000 nodes) and leaves the gathers, the scatter-adds and the last linear map to the same host
  operations the plain program uses. The plain program writes the residual as 1 · x + agg and applies the outer relu
  as a separate step.

  Why they agree. A row of a matrix product depends only on the same row of its left operand, so a tile's product is
  the rows of the whole product it holds, the same finite sums entry by entry (Proof/Stages.lean); every other
  operation of the two stages is pointwise, or reads a bias by its column. The tiles of each launch cover the rows
  exactly once (Proof/Edge0, Edge2, Node1, Node3). On the extended reals 1 · x = x for every x. Everything else is the
  same operation applied to equal arrays (Proof/Chain.lean). No step needs an entry to be finite, so the precondition
  is not used: the frames hold from any memory, and the results are equal for all arguments.

  The idealization changed nothing in the kernel program's text (its ledger is empty), so that claim is `True`.
-/
import proofs.«140540_j43258910605922_2_alg».proof.Defs
import proofs.«140540_j43258910605922_2_alg».proof.Proof.Gen.Kernel
import proofs.«140540_j43258910605922_2_alg».proof.Proof.Gen.Kernel.Frame
import proofs.«140540_j43258910605922_2_alg».proof.Proof.Gen.KernelIdeal
import proofs.«140540_j43258910605922_2_alg».proof.Proof.Gen.KernelIdeal.Frame
import proofs.«140540_j43258910605922_2_alg».proof.Proof.Gen.ReferenceIdeal
import proofs.«140540_j43258910605922_2_alg».proof.Proof.Gen.ReferenceIdeal.Run
import proofs.«140540_j43258910605922_2_alg».proof.Proof.Gen.ReferenceIdeal.Read
import proofs.«140540_j43258910605922_2_alg».proof.Proof.Gen.Pre_finite_inputs
import proofs.«140540_j43258910605922_2_alg».proof.Proof.Chain
import Idealize.ShloMosaic.Adequacy
import Idealize.ShloMosaic.Init

noncomputable section

namespace Cert.Proof

open Idealize.ShloMosaic Idealize.SL.Sem

namespace Claims

/-- The tiled program as printed runs to the end without a fault and leaves its arguments alone. -/
theorem frame_k : Cert.frame_Kernel := fun m ρ _ => Cert.Kernel.Gen.frame m ρ

/-- So does its reading at the extended reals. -/
theorem frame_ki : Cert.frame_KernelIdeal := fun m ρ _ => Cert.KernelIdeal.Gen.frame m ρ

/-- The plain program has no kernel: its run, with the result forgotten, is its frame. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten when the tiled program was read at the extended reals. -/
theorem preserves : Cert.preserves_Kernel_KernelIdeal := trivial

/-- From memories that agree on the arguments both programs end with the plain program's last stage of those
    arguments in their result buffers: the tiled one by following its buffers through its nine segments, the plain one
    by its own run. -/
theorem algebraic : Cert.algebraic_KernelIdeal_ReferenceIdeal := by
  intro m ρ m' ρ' _ hagree
  refine ⟨fun c => Cert.ReferenceIdeal.Read.val_main_v68 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17)),
    Cert.KernelIdeal.Chain.kernel_run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17⟩ := hagree c
  rw [Cert.ReferenceIdeal.Read.val_main_v68_eq, h0, h1, h2, h3, h4, h5, h6, h7, h8, h9, h10, h11, h12, h13, h14, h15, h16, h17]

end Claims

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
